-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x256x16 : Shape := ⟨4, ![64, 64, 256, 16]⟩
abbrev S3x16x16 : Shape := ⟨3, ![3, 16, 16]⟩
abbrev S128x64x1x1 : Shape := ⟨4, ![128, 64, 1, 1]⟩
abbrev S128 : Shape := ⟨1, ![128]⟩
abbrev S64x256x16 : Shape := ⟨3, ![64, 256, 16]⟩
abbrev S_ : Shape := ⟨0, ![]⟩

class Facts : Prop where
  bcast_S_S64x64x256x16 : S_.BroadcastsInDim S64x64x256x16 (![] : Fin 0 → Fin S64x64x256x16.rank)
  reducesTo_S64x64x256x16_S_d0_1_2_3 : S64x64x256x16.ReducesTo [0, 1, 2, 3] S_
  h_S_ : 0 < S_.numel
  bcast_S_S3x16x16 : S_.BroadcastsInDim S3x16x16 (![] : Fin 0 → Fin S3x16x16.rank)
  reducesTo_S3x16x16_S_d0_1_2 : S3x16x16.ReducesTo [0, 1, 2] S_
  bcast_S_S128x64x1x1 : S_.BroadcastsInDim S128x64x1x1 (![] : Fin 0 → Fin S128x64x1x1.rank)
  reducesTo_S128x64x1x1_S_d0_1_2_3 : S128x64x1x1.ReducesTo [0, 1, 2, 3] S_
  bcast_S_S128 : S_.BroadcastsInDim S128 (![] : Fin 0 → Fin S128.rank)
  reducesTo_S128_S_d0 : S128.ReducesTo [0] S_
  bcast_S_S64x256x16 : S_.BroadcastsInDim S64x256x16 (![] : Fin 0 → Fin S64x256x16.rank)
  reducesTo_S64x256x16_S_d0_1_2 : S64x256x16.ReducesTo [0, 1, 2] S_

variable [Facts]

def fn_part1 {F : FTy → Type} [FloatOps F] (main_arg4 : FVec F S64x256x16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x256x16 .f32 := Host.absf main_arg4
  let main_cst_6 : FVec F S_ .f32 := constant S_ .f32 0x7F800000#32
  let main_v20 : FVec F S64x256x16 .f32 := broadcastInDim S64x256x16 ![] bcast_S_S64x256x16 main_cst_6
  let main_v21 : IVec S64x256x16 1 := cmpf .olt main_v19 main_v20
  let main_c_7 : IVec S_ 1 := constantI S_ 1 1#1
  let main_v22 : IVec S_ 1 := (fun x v => Host.reduce IntOp.andi x v reducesTo_S64x256x16_S_d0_1_2 h_S_) main_v21 main_c_7
  let main_v23 : IVec S_ 1 := andi main_v18 main_v22
  main_v23

def fn {F : FTy → Type} [FloatOps F] (main_arg0 : FVec F S64x64x256x16 .f32) (main_arg1 : FVec F S3x16x16 .f32) (main_arg2 : FVec F S128x64x1x1 .f32) (main_arg3 : FVec F S128 .f32) (main_arg4 : FVec F S64x256x16 .f32) : IVec S_ 1 :=
  let main_v0 : FVec F S64x64x256x16 .f32 := Host.absf main_arg0
  let main_cst : FVec F S_ .f32 := constant S_ .f32 0x7F800000#32
  let main_v1 : FVec F S64x64x256x16 .f32 := broadcastInDim S64x64x256x16 ![] bcast_S_S64x64x256x16 main_cst
  let main_v2 : IVec S64x64x256x16 1 := cmpf .olt main_v0 main_v1
  let main_c : IVec S_ 1 := constantI S_ 1 1#1
  let main_v3 : IVec S_ 1 := (fun x v => Host.reduce IntOp.andi x v reducesTo_S64x64x256x16_S_d0_1_2_3 h_S_) main_v2 main_c
  let main_v4 : FVec F S3x16x16 .f32 := Host.absf main_arg1
  let main_cst_0 : FVec F S_ .f32 := constant S_ .f32 0x7F800000#32
  let main_v5 : FVec F S3x16x16 .f32 := broadcastInDim S3x16x16 ![] bcast_S_S3x16x16 main_cst_0
  let main_v6 : IVec S3x16x16 1 := cmpf .olt main_v4 main_v5
  let main_c_1 : IVec S_ 1 := constantI S_ 1 1#1
  let main_v7 : IVec S_ 1 := (fun x v => Host.reduce IntOp.andi x v reducesTo_S3x16x16_S_d0_1_2 h_S_) main_v6 main_c_1
  let main_v8 : IVec S_ 1 := andi main_v3 main_v7
  let main_v9 : FVec F S128x64x1x1 .f32 := Host.absf main_arg2
  let main_cst_2 : FVec F S_ .f32 := constant S_ .f32 0x7F800000#32
  let main_v10 : FVec F S128x64x1x1 .f32 := broadcastInDim S128x64x1x1 ![] bcast_S_S128x64x1x1 main_cst_2
  let main_v11 : IVec S128x64x1x1 1 := cmpf .olt main_v9 main_v10
  let main_c_3 : IVec S_ 1 := constantI S_ 1 1#1
  let main_v12 : IVec S_ 1 := (fun x v => Host.reduce IntOp.andi x v reducesTo_S128x64x1x1_S_d0_1_2_3 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S64x64x256x16 : Shape := ⟨4, ![64, 64, 256, 16]⟩
abbrev S3x16x16 : Shape := ⟨3, ![3, 16, 16]⟩
abbrev S128x64x1x1 : Shape := ⟨4, ![128, 64, 1, 1]⟩
abbrev S128 : Shape := ⟨1, ![128]⟩
abbrev S64x256x16 : Shape := ⟨3, ![64, 256, 16]⟩
abbrev S64x64x16x256 : Shape := ⟨4, ![64, 64, 16, 256]⟩
abbrev S64x16x256 : Shape := ⟨3, ![64, 16, 256]⟩
abbrev S128x64 : Shape := ⟨2, ![128, 64]⟩
abbrev S128x1x64 : Shape := ⟨3, ![128, 1, 64]⟩
abbrev S128x8x64 : Shape := ⟨3, ![128, 8, 64]⟩
abbrev S1024x64 : Shape := ⟨2, ![1024, 64]⟩
abbrev S512 : Shape := ⟨1, ![512]⟩
abbrev S64 : Shape := ⟨1, ![64]⟩
abbrev S64x1 : Shape := ⟨2, ![64, 1]⟩
abbrev S1x512 : Shape := ⟨2, ![1, 512]⟩
abbrev S_ : Shape := ⟨0, ![]⟩
abbrev S64x512 : Shape := ⟨2, ![64, 512]⟩
abbrev S1024 : Shape := ⟨1, ![1024]⟩
abbrev S1024x1 : Shape := ⟨2, ![1024, 1]⟩
abbrev S1024x512 : Shape := ⟨2, ![1024, 512]⟩
abbrev S128x1x1 : Shape := ⟨3, ![128, 1, 1]⟩
abbrev S64x128x16x256 : Shape := ⟨4, ![64, 128, 16, 256]⟩
abbrev S8x64x16x256 : Shape := ⟨4, ![8, 64, 16, 256]⟩
abbrev S8x16x256 : Shape := ⟨3, ![8, 16, 256]⟩
abbrev S8x128x16x256 : Shape := ⟨4, ![8, 128, 16, 256]⟩
abbrev S1x64x8x256 : Shape := ⟨4, ![1, 64, 8, 256]⟩
abbrev S64x8x256 : Shape := ⟨3, ![64, 8, 256]⟩
abbrev S512x256 : Shape := ⟨2, ![512, 256]⟩
abbrev S1024x256 : Shape := ⟨2, ![1024, 256]⟩
abbrev S128x8x256 : Shape := ⟨3, ![128, 8, 256]⟩
abbrev S1x8x256 : Shape := ⟨3, ![1, 8, 256]⟩
abbrev S8x256 : Shape := ⟨2, ![8, 256]⟩
abbrev S1x128x8x256 : Shape := ⟨4, ![1, 128, 8, 256]⟩
abbrev S64x128x256x16 : Shape := ⟨4, ![64, 128, 256, 16]⟩

abbrev nBuf : Space → Nat
  | .hbm => 93
  | .vmem => 8
  | .smem => 0
  | _ => 0

abbrev bufTy : (tb : Table) → Fin (tcTables nBuf tb) → BufTy
  | .hbm, ⟨0, _⟩ => ⟨S64x64x256x16, .f32⟩
  | .hbm, ⟨1, _⟩ => ⟨S3x16x16, .f32⟩
  | .hbm, ⟨2, _⟩ => ⟨S128x64x1x1, .f32⟩
  | .hbm, ⟨3, _⟩ => ⟨S128, .f32⟩
  | .hbm, ⟨4, _⟩ => ⟨S64x256x16, .f32⟩
  | .hbm, ⟨5, _⟩ => ⟨S64x64x16x256, .f32⟩
  | .hbm, ⟨6, _⟩ => ⟨S64x16x256, .f32⟩
  | .hbm, ⟨7, _⟩ => ⟨S128x64, .f32⟩
  | .hbm, ⟨8, _⟩ => ⟨S128x1x64, .f32⟩
  | .hbm, ⟨9, _⟩ => ⟨S128x8x64, .f32⟩
  | .hbm, ⟨10, _⟩ => ⟨S1024x64, .f32⟩
  | .hbm, ⟨11, _⟩ => ⟨S512, .i32⟩
  | .hbm, ⟨12, _⟩ => ⟨S64, .i32⟩
  | .hbm, ⟨13, _⟩ => ⟨S64x1, .i32⟩
  | .hbm, ⟨14, _⟩ => ⟨S1x512, .i32⟩
  | .hbm, ⟨15, _⟩ => ⟨S_, .i32⟩
  | .hbm, ⟨16, _⟩ => ⟨S_, .i32⟩
  | .hbm, ⟨17, _⟩ => ⟨S1x512, .i32⟩
  | .hbm, ⟨18, _⟩ => ⟨S1x512, .i32⟩
  | .hbm, ⟨19, _⟩ => ⟨S1x512, .i32⟩
  | .hbm, ⟨20, _⟩ => ⟨S_, .i32⟩
  | .hbm, ⟨21, _⟩ => ⟨S1x512, .i32⟩
  | .hbm, ⟨22, _⟩ => ⟨S1x512, .i1⟩
  | .hbm, ⟨23, _⟩ => ⟨S1x512, .i32⟩
  | .hbm, ⟨24, _⟩ => ⟨S1x512, .i32⟩
  | .hbm, ⟨25, _⟩ => ⟨S_, .i32⟩
  | .hbm, ⟨26, _⟩ => ⟨S1x512, .i32⟩
  | .hbm, ⟨27, _⟩ => ⟨S1x512, .i1⟩
  | .hbm, ⟨28, _⟩ => ⟨S1x512, .i1⟩
  | .hbm, ⟨29, _⟩ => ⟨S_, .i32⟩
  | .hbm, ⟨30, _⟩ => ⟨S1x512, .i32⟩
  | .hbm, ⟨31, _⟩ => ⟨S1x512, .i32⟩
  | .hbm, ⟨32, _⟩ => ⟨S1x512, .i32⟩
  | .hbm, ⟨33, _⟩ => ⟨S64x512, .i32⟩
  | .hbm, ⟨34, _⟩ => ⟨S64x512, .i32⟩
  | .hbm, ⟨35, _⟩ => ⟨S64x512, .i1⟩
  | .hbm, ⟨36, _⟩ => ⟨S64x512, .f32⟩
  | .hbm, ⟨37, _⟩ => ⟨S1024, .i32⟩
  | .hbm, ⟨38, _⟩ => ⟨S1024x1, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S1024x1, .i32⟩
  | .hbm, ⟨46, _⟩ => ⟨S1024x1, .i32⟩
  | .hbm, ⟨47, _⟩ => ⟨S_, .i32⟩
  | .hbm, ⟨48, _⟩ => ⟨S1024x1, .i32⟩
  | .hbm, ⟨49, _⟩ => ⟨S1024x1, .i1⟩
  | .hbm, ⟨50, _⟩ => ⟨S_, .i32⟩
  | .hbm, ⟨51, _⟩ => ⟨S1024x1, .i32⟩
  | .hbm, ⟨52, _⟩ => ⟨S1024x1, .i1⟩
  | .hbm, ⟨53, _⟩ => ⟨S_, .i32⟩
  | .hbm, ⟨54, _⟩ => ⟨S_, .i1⟩
  | .hbm, ⟨55, _⟩ => ⟨S1024x1, .i1⟩
  | .hbm, ⟨56, _⟩ => ⟨S1024x1, .i1⟩
  | .hbm, ⟨57, _⟩ => ⟨S1024x1, .i1⟩
  | .hbm, ⟨58, _⟩ => ⟨S1024x1, .i32⟩
  | .hbm, ⟨59, _⟩ => ⟨S1024x1, .i32⟩
  | .hbm, ⟨60, _⟩ => ⟨S1024x1, .i32⟩
  | .hbm, ⟨61, _⟩ => ⟨S1x512, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i1⟩
  | .hbm, ⟨66, _⟩ => ⟨S_, .i32⟩
  | .hbm, ⟨67, _⟩ => ⟨S_, .i32⟩
  | .hbm, ⟨68, _⟩ => ⟨S1x512, .i32⟩
  | .hbm, ⟨69, _⟩ => ⟨S1x512, .i32⟩
  | .hbm, ⟨70, _⟩ => ⟨S_, .i32⟩
  | .hbm, ⟨71, _⟩ => ⟨S1x512, .i32⟩
  | .hbm, ⟨72, _⟩ => ⟨S1x512, .i1⟩
  | .hbm, ⟨73, _⟩ => ⟨S_, .i32⟩
  | .hbm, ⟨74, _⟩ => ⟨S1x512, .i32⟩
  | .hbm, ⟨75, _⟩ => ⟨S1x512, .i1⟩
  | .hbm, ⟨76, _⟩ => ⟨S_, .i32⟩
  | .hbm, ⟨77, _⟩ => ⟨S_, .i1⟩
  | .hbm, ⟨78, _⟩ => ⟨S1x512, .i1⟩
  | .hbm, ⟨79, _⟩ => ⟨S1x512, .i1⟩
  | .hbm, ⟨80, _⟩ => ⟨S1x512, .i1⟩
  | .hbm, ⟨81, _⟩ => ⟨S1x512, .i32⟩
  | .hbm, ⟨82, _⟩ => ⟨S1x512, .i32⟩
  | .hbm, ⟨83, _⟩ => ⟨S1x512, .i32⟩
  | .hbm, ⟨84, _⟩ => ⟨S1024x512, .i32⟩
  | .hbm, ⟨85, _⟩ => ⟨S1024x512, .i32⟩
  | .hbm, ⟨86, _⟩ => ⟨S1024x512, .i1⟩
  | .hbm, ⟨87, _⟩ => ⟨S1024x512, .f32⟩
  | .hbm, ⟨88, _⟩ => ⟨S1024x512, .f32⟩
  | .hbm, ⟨89, _⟩ => ⟨S1024x512, .f32⟩
  | .hbm, ⟨90, _⟩ => ⟨S128x1x1, .f32⟩
  | .hbm, ⟨91, _⟩ => ⟨S64x128x16x256, .f32⟩
  | .hbm, ⟨92, _⟩ => ⟨S64x128x256x16, .f32⟩
  | .local _ .vmem, ⟨0, _⟩ => ⟨S8x64x16x256, .f32⟩
  | .local _ .vmem, ⟨1, _⟩ => ⟨S8x64x16x256, .f32⟩
  | .local _ .vmem, ⟨2, _⟩ => ⟨S1024x512, .f32⟩
  | .local _ .vmem, ⟨3, _⟩ => ⟨S128x1x1, .f32⟩
  | .local _ .vmem, ⟨4, _⟩ => ⟨S8x16x256, .f32⟩
  | .local _ .vmem, ⟨5, _⟩ => ⟨S8x16x256, .f32⟩
  | .local _ .vmem, ⟨6, _⟩ => ⟨S8x128x16x256, .f32⟩
  | .local _ .vmem, ⟨7, _⟩ => ⟨S8x128x16x256, .f32⟩
  | _, _ => ⟨S64x64x256x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_0 : Ref sig .tc := ⟨.hbm, 39, rfl⟩
abbrev main_call1_v0 : Ref sig .tc := ⟨.hbm, 40, rfl⟩
abbrev main_call1_c : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_c_1 : Ref sig .tc := ⟨.hbm, 47, rfl⟩
abbrev main_call1_v5 : Ref sig .tc := ⟨.hbm, 48, rfl⟩
abbrev main_call1_v6 : Ref sig .tc := ⟨.hbm, 49, rfl⟩
abbrev main_call1_c_2 : Ref sig .tc := ⟨.hbm, 50, rfl⟩
abbrev main_call1_v7 : Ref sig .tc := ⟨.hbm, 51, rfl⟩
abbrev main_call1_v8 : Ref sig .tc := ⟨.hbm, 52, rfl⟩
abbrev main_call1_c_3 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_v17 : Ref sig .tc := ⟨.hbm, 60, rfl⟩
abbrev main_v18 : Ref sig .tc := ⟨.hbm, 61, rfl⟩
abbrev main_c_1 : Ref sig .tc := ⟨.hbm, 62, rfl⟩
abbrev main_call2_v0 : Ref sig .tc := ⟨.hbm, 63, rfl⟩
abbrev main_call2_c : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_c_1 : Ref sig .tc := ⟨.hbm, 70, rfl⟩
abbrev main_call2_v5 : Ref sig .tc := ⟨.hbm, 71, rfl⟩
abbrev main_call2_v6 : Ref sig .tc := ⟨.hbm, 72, rfl⟩
abbrev main_call2_c_2 : Ref sig .tc := ⟨.hbm, 73, rfl⟩
abbrev main_call2_v7 : Ref sig .tc := ⟨.hbm, 74, rfl⟩
abbrev main_call2_v8 : Ref sig .tc := ⟨.hbm, 75, rfl⟩
abbrev main_call2_c_3 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_v12 : Ref sig .tc := ⟨.hbm, 80, rfl⟩
abbrev main_call2_v13 : Ref sig .tc := ⟨.hbm, 81, rfl⟩
abbrev main_call2_v14 : Ref sig .tc := ⟨.hbm, 82, rfl⟩
abbrev main_v19 : Ref sig .tc := ⟨.hbm, 83, rfl⟩
abbrev main_v20 : Ref sig .tc := ⟨.hbm, 84, rfl⟩
abbrev main_v21 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S8x64x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S64x64x256x16_S64x64x16x256_0_1_3_2 : S64x64x256x16.Transposes [0, 1, 3, 2] S64x64x16x256
  transposes_S64x256x16_S64x16x256_0_2_1 : S64x256x16.Transposes [0, 2, 1] S64x16x256
  shapeCasts_S128x64x1x1_S128x64 : S128x64x1x1.ShapeCasts S128x64
  bcast_S128x64_S128x1x64_0_2 : S128x64.BroadcastsInDim S128x1x64 (![0, 2] : Fin 2 → Fin S128x1x64.rank)
  bcast_S128x1x64_S128x8x64_0_1_2 : S128x1x64.BroadcastsInDim S128x8x64 (![0, 1, 2] : Fin 3 → Fin S128x8x64.rank)
  shapeCasts_S128x8x64_S1024x64 : S128x8x64.ShapeCasts S1024x64
  bcast_S64_S64x1_0 : S64.BroadcastsInDim S64x1 (![0] : Fin 1 → Fin S64x1.rank)
  bcast_S512_S1x512_1 : S512.BroadcastsInDim S1x512 (![1] : Fin 1 → Fin S1x512.rank)
  bcast_S_S1x512 : S_.BroadcastsInDim S1x512 (![] : Fin 0 → Fin S1x512.rank)
  bcast_S64x1_S64x512_0_1 : S64x1.BroadcastsInDim S64x512 (![0, 1] : Fin 2 → Fin S64x512.rank)
  bcast_S1x512_S64x512_0_1 : S1x512.BroadcastsInDim S64x512 (![0, 1] : Fin 2 → Fin S64x512.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  bcast_S1x512_S1024x512_0_1 : S1x512.BroadcastsInDim S1024x512 (![0, 1] : Fin 2 → Fin S1024x512.rank)
  shapeCasts_S128_S128x1x1 : S128.ShapeCasts S128x1x1
  inb_S8x64x16x256_S1x64x8x256_0_0_0_0 : ∀ a, (![0, 0, 0, 0] : Fin 4 → Nat) a + S1x64x8x256.size a ≤ S8x64x16x256.size a
  h_S1x64x8x256 : 0 < S1x64x8x256.numel
  shapeCasts_S1x64x8x256_S64x8x256 : S1x64x8x256.ShapeCasts S64x8x256
  shapeCasts_S64x8x256_S512x256 : S64x8x256.ShapeCasts S512x256
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S1024x256_S128x8x256 : S1024x256.ShapeCasts S128x8x256
  inb_S128x1x1_S128x1x1_0_0_0 : ∀ a, (![0, 0, 0] : Fin 3 → Nat) a + S128x1x1.size a ≤ S128x1x1.size a
  h_S128x1x1 : 0 < S128x1x1.numel
  shapeCasts_S128x1x1_S128x1x1 : S128x1x1.ShapeCasts S128x1x1
  broadcasts_S128x1x1_S128x8x256 : S128x1x1.Broadcasts S128x8x256
  inb_S8x16x256_S1x8x256_0_0_0 : ∀ a, (![0, 0, 0] : Fin 3 → Nat) a + S1x8x256.size a ≤ S8x16x256.size a
  h_S1x8x256 : 0 < S1x8x256.numel
  shapeCasts_S1x8x256_S8x256 : S1x8x256.ShapeCasts S8x256
  shapeCasts_S8x256_S1x8x256 : S8x256.ShapeCasts S1x8x256
  broadcasts_S1x8x256_S128x8x256 : S1x8x256.Broadcasts S128x8x256
  inb_S8x128x16x256_S1x128x8x256_0_0_0_0 : ∀ a, (![0, 0, 0, 0] : Fin 4 → Nat) a + S1x128x8x256.size a ≤ S8x128x16x256.size a
  h_S1x128x8x256 : 0 < S1x128x8x256.numel
  shapeCasts_S1x128x8x256_S128x8x256 : S1x128x8x256.ShapeCasts S128x8x256
  shapeCasts_S128x8x256_S1x128x8x256 : S128x8x256.ShapeCasts S1x128x8x256
  inb_S8x64x16x256_S1x64x8x256_0_0_8_0 : ∀ a, (![0, 0, 8, 0] : Fin 4 → Nat) a + S1x64x8x256.size a ≤ S8x64x16x256.size a
  inb_S8x16x256_S1x8x256_0_8_0 : ∀ a, (![0, 8, 0] : Fin 3 → Nat) a + S1x8x256.size a ≤ S8x16x256.size a
  inb_S8x128x16x256_S1x128x8x256_0_0_8_0 : ∀ a, (![0, 0, 8, 0] : Fin 4 → Nat) a + S1x128x8x256.size a ≤ S8x128x16x256.size a
  inb_S8x64x16x256_S1x64x8x256_1_0_0_0 : ∀ a, (![1, 0, 0, 0] : Fin 4 → Nat) a + S1x64x8x256.size a ≤ S8x64x16x256.size a
  inb_S8x16x256_S1x8x256_1_0_0 : ∀ a, (![1, 0, 0] : Fin 3 → Nat) a + S1x8x256.size a ≤ S8x16x256.size a
  inb_S8x128x16x256_S1x128x8x256_1_0_0_0 : ∀ a, (![1, 0, 0, 0] : Fin 4 → Nat) a + S1x128x8x256.size a ≤ S8x128x16x256.size a
  inb_S8x64x16x256_S1x64x8x256_1_0_8_0 : ∀ a, (![1, 0, 8, 0] : Fin 4 → Nat) a + S1x64x8x256.size a ≤ S8x64x16x256.size a
  inb_S8x16x256_S1x8x256_1_8_0 : ∀ a, (![1, 8, 0] : Fin 3 → Nat) a + S1x8x256.size a ≤ S8x16x256.size a
  inb_S8x128x16x256_S1x128x8x256_1_0_8_0 : ∀ a, (![1, 0, 8, 0] : Fin 4 → Nat) a + S1x128x8x256.size a ≤ S8x128x16x256.size a
  inb_S8x64x16x256_S1x64x8x256_2_0_0_0 : ∀ a, (![2, 0, 0, 0] : Fin 4 → Nat) a + S1x64x8x256.size a ≤ S8x64x16x256.size a
  inb_S8x16x256_S1x8x256_2_0_0 : ∀ a, (![2, 0, 0] : Fin 3 → Nat) a + S1x8x256.size a ≤ S8x16x256.size a
  inb_S8x128x16x256_S1x128x8x256_2_0_0_0 : ∀ a, (![2, 0, 0, 0] : Fin 4 → Nat) a + S1x128x8x256.size a ≤ S8x128x16x256.size a
  inb_S8x64x16x256_S1x64x8x256_2_0_8_0 : ∀ a, (![2, 0, 8, 0] : Fin 4 → Nat) a + S1x64x8x256.size a ≤ S8x64x16x256.size a
  inb_S8x16x256_S1x8x256_2_8_0 : ∀ a, (![2, 8, 0] : Fin 3 → Nat) a + S1x8x256.size a ≤ S8x16x256.size a
  inb_S8x128x16x256_S1x128x8x256_2_0_8_0 : ∀ a, (![2, 0, 8, 0] : Fin 4 → Nat) a + S1x128x8x256.size a ≤ S8x128x16x256.size a
  inb_S8x64x16x256_S1x64x8x256_3_0_0_0 : ∀ a, (![3, 0, 0, 0] : Fin 4 → Nat) a + S1x64x8x256.size a ≤ S8x64x16x256.size a
  inb_S8x16x256_S1x8x256_3_0_0 : ∀ a, (![3, 0, 0] : Fin 3 → Nat) a + S1x8x256.size a ≤ S8x16x256.size a
  inb_S8x128x16x256_S1x128x8x256_3_0_0_0 : ∀ a, (![3, 0, 0, 0] : Fin 4 → Nat) a + S1x128x8x256.size a ≤ S8x128x16x256.size a
  inb_S8x64x16x256_S1x64x8x256_3_0_8_0 : ∀ a, (![3, 0, 8, 0] : Fin 4 → Nat) a + S1x64x8x256.size a ≤ S8x64x16x256.size a
  inb_S8x16x256_S1x8x256_3_8_0 : ∀ a, (![3, 8, 0] : Fin 3 → Nat) a + S1x8x256.size a ≤ S8x16x256.size a
  inb_S8x128x16x256_S1x128x8x256_3_0_8_0 : ∀ a, (![3, 0, 8, 0] : Fin 4 → Nat) a + S1x128x8x256.size a ≤ S8x128x16x256.size a
  inb_S8x64x16x256_S1x64x8x256_4_0_0_0 : ∀ a, (![4, 0, 0, 0] : Fin 4 → Nat) a + S1x64x8x256.size a ≤ S8x64x16x256.size a
  inb_S8x16x256_S1x8x256_4_0_0 : ∀ a, (![4, 0, 0] : Fin 3 → Nat) a + S1x8x256.size a ≤ S8x16x256.size a
  inb_S8x128x16x256_S1x128x8x256_4_0_0_0 : ∀ a, (![4, 0, 0, 0] : Fin 4 → Nat) a + S1x128x8x256.size a ≤ S8x128x16x256.size a
  inb_S8x64x16x256_S1x64x8x256_4_0_8_0 : ∀ a, (![4, 0, 8, 0] : Fin 4 → Nat) a + S1x64x8x256.size a ≤ S8x64x16x256.size a
  inb_S8x16x256_S1x8x256_4_8_0 : ∀ a, (![4, 8, 0] : Fin 3 → Nat) a + S1x8x256.size a ≤ S8x16x256.size a
  inb_S8x128x16x256_S1x128x8x256_4_0_8_0 : ∀ a, (![4, 0, 8, 0] : Fin 4 → Nat) a + S1x128x8x256.size a ≤ S8x128x16x256.size a
  inb_S8x64x16x256_S1x64x8x256_5_0_0_0 : ∀ a, (![5, 0, 0, 0] : Fin 4 → Nat) a + S1x64x8x256.size a ≤ S8x64x16x256.size a
  inb_S8x16x256_S1x8x256_5_0_0 : ∀ a, (![5, 0, 0] : Fin 3 → Nat) a + S1x8x256.size a ≤ S8x16x256.size a
  inb_S8x128x16x256_S1x128x8x256_5_0_0_0 : ∀ a, (![5, 0, 0, 0] : Fin 4 → Nat) a + S1x128x8x256.size a ≤ S8x128x16x256.size a
  inb_S8x64x16x256_S1x64x8x256_5_0_8_0 : ∀ a, (![5, 0, 8, 0] : Fin 4 → Nat) a + S1x64x8x256.size a ≤ S8x64x16x256.size a
  inb_S8x16x256_S1x8x256_5_8_0 : ∀ a, (![5, 8, 0] : Fin 3 → Nat) a + S1x8x256.size a ≤ S8x16x256.size a
  inb_S8x128x16x256_S1x128x8x256_5_0_8_0 : ∀ a, (![5, 0, 8, 0] : Fin 4 → Nat) a + S1x128x8x256.size a ≤ S8x128x16x256.size a
  inb_S8x64x16x256_S1x64x8x256_6_0_0_0 : ∀ a, (![6, 0, 0, 0] : Fin 4 → Nat) a + S1x64x8x256.size a ≤ S8x64x16x256.size a
  inb_S8x16x256_S1x8x256_6_0_0 : ∀ a, (![6, 0, 0] : Fin 3 → Nat) a + S1x8x256.size a ≤ S8x16x256.size a
  inb_S8x128x16x256_S1x128x8x256_6_0_0_0 : ∀ a, (![6, 0, 0, 0] : Fin 4 → Nat) a + S1x128x8x256.size a ≤ S8x128x16x256.size a
  inb_S8x64x16x256_S1x64x8x256_6_0_8_0 : ∀ a, (![6, 0, 8, 0] : Fin 4 → Nat) a + S1x64x8x256.size a ≤ S8x64x16x256.size a
  inb_S8x16x256_S1x8x256_6_8_0 : ∀ a, (![6, 8, 0] : Fin 3 → Nat) a + S1x8x256.size a ≤ S8x16x256.size a
  inb_S8x128x16x256_S1x128x8x256_6_0_8_0 : ∀ a, (![6, 0, 8, 0] : Fin 4 → Nat) a + S1x128x8x256.size a ≤ S8x128x16x256.size a
  inb_S8x64x16x256_S1x64x8x256_7_0_0_0 : ∀ a, (![7, 0, 0, 0] : Fin 4 → Nat) a + S1x64x8x256.size a ≤ S8x64x16x256.size a
  inb_S8x16x256_S1x8x256_7_0_0 : ∀ a, (![7, 0, 0] : Fin 3 → Nat) a + S1x8x256.size a ≤ S8x16x256.size a
  inb_S8x128x16x256_S1x128x8x256_7_0_0_0 : ∀ a, (![7, 0, 0, 0] : Fin 4 → Nat) a + S1x128x8x256.size a ≤ S8x128x16x256.size a
  inb_S8x64x16x256_S1x64x8x256_7_0_8_0 : ∀ a, (![7, 0, 8, 0] : Fin 4 → Nat) a + S1x64x8x256.size a ≤ S8x64x16x256.size a
  inb_S8x16x256_S1x8x256_7_8_0 : ∀ a, (![7, 8, 0] : Fin 3 → Nat) a + S1x8x256.size a ≤ S8x16x256.size a
  inb_S8x128x16x256_S1x128x8x256_7_0_8_0 : ∀ a, (![7, 0, 8, 0] : Fin 4 → Nat) a + S1x128x8x256.size a ≤ S8x128x16x256.size a
  transposes_S64x128x16x256_S64x128x256x16_0_1_3_2 : S64x128x16x256.Transposes [0, 1, 3, 2] S64x128x256x16
  dot_S1024x64_S64x512_S1024x512_1_0_0_1_n_n_wf : DotDims.WF S1024x64 S64x512 S1024x512 [1] [0] [0] [1] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x16x256.size a ≤ S64x64x16x256.size a
  hwx0_0 : ∀ i : grid0.Coords, EltTy.bits .f32 = 32 ∨ (Rect.block (s := S64x64x16x256) S8x64x16x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1x1.size a ≤ S128x1x1.size a
  hwx0_2 : ∀ i : grid0.Coords, EltTy.bits .f32 = 32 ∨ (Rect.block (s := S128x1x1) S128x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x16x256.size a ≤ S64x16x256.size a
  hwx0_3 : ∀ i : grid0.Coords, EltTy.bits .f32 = 32 ∨ (Rect.block (s := S64x16x256) S8x16x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128x16x256.size a ≤ S64x128x16x256.size a
  hwx0_4 : ∀ i : grid0.Coords, EltTy.bits .f32 = 32 ∨ (Rect.block (s := S64x128x16x256) S8x128x16x256.size (cc0_transform_4 i) (hinb0_4 i)).WholeWords (EltTy.packing .f32)

variable [Facts₀]

def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_v0) S8x64x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S128x1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x16x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27) S8x128x16x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x64x256x16 : Shape := ⟨4, ![64, 64, 256, 16]⟩
abbrev S3x16x16 : Shape := ⟨3, ![3, 16, 16]⟩
abbrev S128x64x1x1 : Shape := ⟨4, ![128, 64, 1, 1]⟩
abbrev S128 : Shape := ⟨1, ![128]⟩
abbrev S64x256x16 : Shape := ⟨3, ![64, 256, 16]⟩
abbrev S64x64x4096 : Shape := ⟨3, ![64, 64, 4096]⟩
abbrev S128x64 : Shape := ⟨2, ![128, 64]⟩
abbrev S128x1 : Shape := ⟨2, ![128, 1]⟩
abbrev S64x1x4096 : Shape := ⟨3, ![64, 1, 4096]⟩
abbrev S64x128x4096 : Shape := ⟨3, ![64, 128, 4096]⟩
abbrev S1x64x2048 : Shape := ⟨3, ![1, 64, 2048]⟩
abbrev S1x1x2048 : Shape := ⟨3, ![1, 1, 2048]⟩
abbrev S1x128x2048 : Shape := ⟨3, ![1, 128, 2048]⟩
abbrev S64x2048 : Shape := ⟨2, ![64, 2048]⟩
abbrev S128x2048 : Shape := ⟨2, ![128, 2048]⟩
abbrev S1x2048 : Shape := ⟨2, ![1, 2048]⟩
abbrev S64x128x256x16 : Shape := ⟨4, ![64, 128, 256, 16]⟩

abbrev nBuf : Space → Nat
  | .hbm => 11
  | .vmem => 8
  | .smem => 0
  | _ => 0

abbrev bufTy : (tb : Table) → Fin (tcTables nBuf tb) → BufTy
  | .hbm, ⟨0, _⟩ => ⟨S64x64x256x16, .f32⟩
  | .hbm, ⟨1, _⟩ => ⟨S3x16x16, .f32⟩
  | .hbm, ⟨2, _⟩ => ⟨S128x64x1x1, .f32⟩
  | .hbm, ⟨3, _⟩ => ⟨S128, .f32⟩
  | .hbm, ⟨4, _⟩ => ⟨S64x256x16, .f32⟩
  | .hbm, ⟨5, _⟩ => ⟨S64x64x4096, .f32⟩
  | .hbm, ⟨6, _⟩ => ⟨S128x64, .f32⟩
  | .hbm, ⟨7, _⟩ => ⟨S128x1, .f32⟩
  | .hbm, ⟨8, _⟩ => ⟨S64x1x4096, .f32⟩
  | .hbm, ⟨9, _⟩ => ⟨S64x128x4096, .f32⟩
  | .hbm, ⟨10, _⟩ => ⟨S64x128x256x16, .f32⟩
  | .local _ .vmem, ⟨0, _⟩ => ⟨S1x64x2048, .f32⟩
  | .local _ .vmem, ⟨1, _⟩ => ⟨S1x64x2048, .f32⟩
  | .local _ .vmem, ⟨2, _⟩ => ⟨S128x64, .f32⟩
  | .local _ .vmem, ⟨3, _⟩ => ⟨S128x1, .f32⟩
  | .local _ .vmem, ⟨4, _⟩ => ⟨S1x1x2048, .f32⟩
  | .local _ .vmem, ⟨5, _⟩ => ⟨S1x1x2048, .f32⟩
  | .local _ .vmem, ⟨6, _⟩ => ⟨S1x128x2048, .f32⟩
  | .local _ .vmem, ⟨7, _⟩ => ⟨S1x128x2048, .f32⟩
  | _, _ => ⟨S64x64x256x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S64x64x256x16_S64x64x4096 : S64x64x256x16.ShapeCasts S64x64x4096
  shapeCasts_S128x64x1x1_S128x64 : S128x64x1x1.ShapeCasts S128x64
  shapeCasts_S128_S128x1 : S128.ShapeCasts S128x1
  shapeCasts_S64x256x16_S64x1x4096 : S64x256x16.ShapeCasts S64x1x4096
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x2048 : S128x1.Broadcasts S128x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S128x2048 : S1x2048.Broadcasts S128x2048
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  shapeCasts_S128x2048_S1x128x2048 : S128x2048.ShapeCasts S1x128x2048
  shapeCasts_S64x128x4096_S64x128x256x16 : S64x128x4096.ShapeCasts S64x128x256x16
  dot_S128x64_S64x2048_S128x2048_1_0_0_1_n_n_wf : DotDims.WF S128x64 S64x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x2048.size a ≤ S64x64x4096.size a
  hwx0_0 : ∀ i : grid0.Coords, EltTy.bits .f32 = 32 ∨ (Rect.block (s := S64x64x4096) S1x64x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S64x1x4096.size a
  hwx0_3 : ∀ i : grid0.Coords, EltTy.bits .f32 = 32 ∨ (Rect.block (s := S64x1x4096) S1x1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x2048.size a ≤ S64x128x4096.size a
  hwx0_4 : ∀ i : grid0.Coords, EltTy.bits .f32 = 32 ∨ (Rect.block (s := S64x128x4096) S1x128x2048.size (cc0_transform_4 i) (hinb0_4 i)).WholeWords (EltTy.packing .f32)

variable [Facts₀]

def dot_S128x64_S64x2048_S128x2048_1_0_0_1_n_n : DotDims S128x64 S64x2048 S128x2048 where
  lhsContracting := [1]
  rhsContracting := [0]
  lhsNonContracting := [0]
  rhsNonContracting := [1]
  lhsBatch := []
  rhsBatch := []
  wf := dot_S128x64_S64x2048_S128x2048_1_0_0_1_n_n_wf

abbrev win0_0 : Pipeline.Window sig grid0 :=
  Pipeline.Window.ofSpec (Memref.whole main_v0) S1x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== Proof.Spec.lean ====
/-
  The function both programs compute, and the one law that joins their two arrangements of it.

  For a batch of 64 samples, 64 input channels, 128 output channels, 256 time steps and 16 graph nodes, the masked
  1×1 convolution is
      out[n, co, t, v] = (∑ ci, w[co, ci] · x[n, ci, t, v] + b[co]) · mask[n, t, v]
  on the extended reals. One program contracts the 64 channels directly. The other contracts 512 = 64 · 8 columns
  against a block-diagonal weight whose entry at row co·8 + g and column ci·8 + g' is w[co, ci] when g = g' and 0
  otherwise; every column with g' ≠ g contributes 0 · x = 0, which holds for every extended real x, so the sum over 512
  columns is the sum over the 64 channels. No finiteness is used: only a · 0 = 0, 0 · a = 0 and the re-indexing of a
  finite sum in a commutative monoid.
-/
import Idealize.ShloMosaic.PureOps.Ideal
import Idealize.ShloMosaic.Lib.ValueIdx

noncomputable section

open scoped BigOperators

namespace Cert.Spec

open Idealize.ShloMosaic Idealize.ShloMosaic.ValueIdx

/-- The masked 1×1 convolution, index by index: the channel contraction, plus the bias of the output channel, times
    the mask entry of the sample, time step and node. -/
def conv (x : (⟨4, ![64, 64, 256, 16]⟩ : Shape).Idx → EReal) (w : (⟨4, ![128, 64, 1, 1]⟩ : Shape).Idx → EReal)
    (b : (⟨1, ![128]⟩ : Shape).Idx → EReal) (mk : (⟨3, ![64, 256, 16]⟩ : Shape).Idx → EReal) :
    (⟨4, ![64, 128, 256, 16]⟩ : Shape).Idx → EReal :=
  fun i => ((∑ ci : Fin 64, w (ix4 (i 1 : Fin 128) ci (0 : Fin 1) (0 : Fin 1)) * x (ix4 (i 0 : Fin 64) ci (i 2 : Fin 256) (i 3 : Fin 16)))
      + b (ix1 (i 1 : Fin 128))) * mk (ix3 (i 0 : Fin 64) (i 2 : Fin 256) (i 3 : Fin 16))

/-- One entry of the block-diagonal weight: row r = co·8 + g, column k = ci·8 + g' holds w[co, ci] when g = g', and 0
    otherwise. -/
def wbdAt (w : (⟨4, ![128, 64, 1, 1]⟩ : Shape).Idx → EReal) (r : Fin 1024) (k : Fin 512) : EReal :=
  if r.val % 8 = k.val % 8
    then w (ix4 (⟨r.val / 8, by have := r.isLt; omega⟩ : Fin 128) (⟨k.val / 8, by have := k.isLt; omega⟩ : Fin 64) (0 : Fin 1) (0 : Fin 1))
    else 0

/-- The block-diagonal weight as an array of 1024 rows and 512 columns. -/
def wbd (w : (⟨4, ![128, 64, 1, 1]⟩ : Shape).Idx → EReal) : (⟨2, ![1024, 512]⟩ : Shape).Idx → EReal :=
  fun i => wbdAt w (i 0 : Fin 1024) (i 1 : Fin 512)

/-- The collapse of the block-diagonal contraction: against row co·8 + g of the block-diagonal weight, the sum over
    the 512 columns k of weight · X[k / 8, k % 8] is the sum over the 64 channels ci of w[co, ci] · X[ci, g]. -/
theorem collapse (w : (⟨4, ![128, 64, 1, 1]⟩ : Shape).Idx → EReal) (X : Fin 64 → Fin 8 → EReal) (co : Fin 128) (g : Fin 8) :
    (∑ k : Fin 512, wbdAt w (⟨co.val * 8 + g.val, by have := co.isLt; have := g.isLt; omega⟩ : Fin 1024) k
        * X ⟨k.val / 8, by have := k.isLt; omega⟩ ⟨k.val % 8, Nat.mod_lt _ (by decide)⟩)
      = ∑ ci : Fin 64, w (ix4 co ci (0 : Fin 1) (0 : Fin 1)) * X ci g := by
  -- a sum over the 512 columns is a double sum over (channel, node): column k = node + 8 · channel
  have hsum : ∀ f : Fin 512 → EReal, ∑ k : Fin 512, f k
      = ∑ ci : Fin 64, ∑ g' : Fin 8, f ⟨g'.val + 8 * ci.val, by have := ci.isLt; have := g'.isLt; omega⟩ := by
    intro f
    rw [← Equiv.sum_comp (finProdFinEquiv (m := 64) (n := 8)) f, Fintype.sum_prod_type]
    rfl
  rw [hsum]
  refine Finset.sum_congr rfl fun ci _ => ?_
  -- within one channel only the node g' = g meets a non-zero weight entry
  rw [Finset.sum_eq_single g]
  · have h1 : (co.val * 8 + g.val) % 8 = (g.val + 8 * ci.val) % 8 := by omega
    have h2 : (co.val * 8 + g.val) / 8 = co.val := by omega
    have h3 : (g.val + 8 * ci.val) / 8 = ci.val := by omega
    have h4 : (g.val + 8 * ci.val) % 8 = g.val := by omega
    have key : ∀ (a : Fin 128) (b : Fin 64) (c : Fin 8), a = co → b = ci → c = g →
        w (ix4 a b (0 : Fin 1) (0 : Fin 1)) * X b c = w (ix4 co ci (0 : Fin 1) (0 : Fin 1)) * X ci g := by
      rintro a b c rfl rfl rfl; rfl
    unfold wbdAt
    dsimp only
    rw [if_pos h1]
    exact key _ _ _ (Fin.ext h2) (Fin.ext h3) (Fin.ext h4)
  · intro g' _ hne
    have hv : g'.val ≠ g.val := fun h => hne (Fin.ext h)
    have h1 : ¬ (co.val * 8 + g.val) % 8 = (g'.val + 8 * ci.val) % 8 := by
      have := g.isLt; have := g'.isLt; omega
    unfold wbdAt
    dsimp only
    rw [if_neg h1, zero_mul]
  · intro h; exact absurd (Finset.mem_univ g) h

end Cert.Spec

end
-- ==== Proof.Claims.lean ====
/-
  The five conjuncts of the claim. The three frames are the generated ones and the idealization rewrote nothing. The
  algebraic conjunct is assembled here from the two programs' runs read as values: each program's result array ends at
  the masked 1×1 convolution `Cert.Spec.conv` of its own argument arrays, and its argument arrays end unchanged; from
  memories that agree on the arguments the two results are therefore the same array, and the second result, the
  untouched second argument, is the same on both sides. No finiteness of the inputs is used.
-/
import proofs.«139780_g2000502679770559_pallasbulk_20_26_alg».proof.Defs
import proofs.«139780_g2000502679770559_pallasbulk_20_26_alg».proof.Proof.Spec
import proofs.«139780_g2000502679770559_pallasbulk_20_26_alg».proof.Proof.Gen.Kernel.Frame
import proofs.«139780_g2000502679770559_pallasbulk_20_26_alg».proof.Proof.Gen.KernelIdeal.Frame
import proofs.«139780_g2000502679770559_pallasbulk_20_26_alg».proof.Proof.Gen.ReferenceIdeal.Frame

noncomputable section

namespace Cert.Proof.Claims

open Idealize.ShloMosaic Idealize.SL.Sem

/-- The printed kernel runs and leaves its arguments unchanged. -/
theorem frame_k [hKernel : Cert.Kernel.Facts] [hPre_finite_inputs : Cert.Pre_finite_inputs.Facts] : Cert.frame_Kernel :=
  fun m ρ _ => Cert.Kernel.Gen.frame m ρ

/-- The idealized kernel runs and leaves its arguments unchanged. -/
theorem frame_ki [hKernelIdeal : Cert.KernelIdeal.Facts] [hPre_finite_inputs : Cert.Pre_finite_inputs.Facts] : Cert.frame_KernelIdeal :=
  fun m ρ _ => Cert.KernelIdeal.Gen.frame m ρ

/-- The idealized reference runs and leaves its arguments unchanged. -/
theorem frame_ri [hReferenceIdeal : Cert.ReferenceIdeal.Facts] [hPre_finite_inputs : Cert.Pre_finite_inputs.Facts] : Cert.frame_ReferenceIdeal :=
  fun m ρ _ => Cert.ReferenceIdeal.Gen.frame m ρ

/-- The idealization rewrote no operation, so there is nothing to preserve. -/
theorem preserves : Cert.preserves_Kernel_KernelIdeal := trivial

/-- If each program's run ends with its result array at the masked convolution of its own arguments and its arguments
    unchanged, then from memories agreeing on the arguments the two programs end with equal results. The witnesses are
    the convolution of the kernel's arguments and the kernel's second argument. -/
theorem algebraic_of [hKernelIdeal : Cert.KernelIdeal.Facts] [hReferenceIdeal : Cert.ReferenceIdeal.Facts] [hPre_finite_inputs : Cert.Pre_finite_inputs.Facts]
    (hK : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v28) = Cert.Spec.conv (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)))
    (hR : ∀ (m : (ℓ : Loc Cert.ReferenceIdeal.nD Cert.ReferenceIdeal.τ Cert.ReferenceIdeal.sig) → Buf (Elt Ideal) ℓ) (ρ : Dev Cert.ReferenceIdeal.nD → PrngReg),
      θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
        r.2.mem ((c.tc : Thread Cert.ReferenceIdeal.nD Cert.ReferenceIdeal.τ).loc Cert.ReferenceIdeal.main_v5) = Cert.Spec.conv (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))) :
    Cert.algebraic_KernelIdeal_ReferenceIdeal := by
  intro m ρ m' ρ' _ hagree
  refine ⟨fun c => Cert.Spec.conv (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => m ((c.tc : Thread Cert.KernelIdeal.nD Cert.KernelIdeal.τ).loc Cert.KernelIdeal.main_arg1), ?_, ?_⟩
  · exact (θ_run (Cert.KernelIdeal.defs (F := Ideal)) _ _).mono (fun _ h c => ⟨(h c).1, (h c).2.2.1, (h c).2⟩) (hK m ρ)
  · refine (θ_run (Cert.ReferenceIdeal.defs (F := Ideal)) _ _).mono (fun _ h c => ⟨?_, ?_, (h c).2⟩) (hR m' ρ')
    · rw [(h c).1, (hagree c).1, (hagree c).2.2.1, (hagree c).2.2.2.1, (hagree c).2.2.2.2]
    · rw [(h c).2.2.1, (hagree c).2.1]

end Cert.Proof.Claims

end
-- ==== Proof.KerHost.lean ====
/-
  What the kernel program's region finds in its four input arrays, each written by host operations before the region:
  the input transposed to put the time axis last, the mask transposed likewise, the bias as a column, and the
  block-diagonal weight (Spec.lean's `wbd`) that the integer index arithmetic, one small matrix product and one
  0/1 mask build from the 128 × 64 weight.
-/
import proofs.«139780_g2000502679770559_pallasbulk_20_26_alg».proof.Proof.Gen.KernelIdeal.Frame
import proofs.«139780_g2000502679770559_pallasbulk_20_26_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

open scoped BigOperators
open Idealize.ShloMosaic Idealize.ShloMosaic.TcCoe Idealize.SL.Sem Idealize.ShloMosaic.ValueIdx

namespace Cert.KerHost

open Cert.KernelIdeal Cert.KernelIdeal.Gen

variable (m : (ℓ : Loc nD τ sig) → Buf (Elt Ideal) ℓ)

/-- The floored remainder spelt in integer operations on one pair of words: the remainder of the dividend's sign, plus
    the divisor when that remainder is not zero and its sign differs from the divisor's; a zero divisor read as one. -/
def remW (a d : BitVec 32) : BitVec 32 :=
  let d' := Scalar.select (IntOp.cmpi .eq d 0#32) 1#32 d
  let r := IntOp.remsi .host a d'
  Scalar.select (IntOp.andi (IntOp.cmpi .ne (IntOp.cmpi .slt r 0#32) (IntOp.cmpi .slt d' 0#32)) (IntOp.cmpi .ne r 0#32))
    (IntOp.addi r d') r

/-- On the words 0 … 1023 the spelt remainder by 8 is the natural-number remainder. -/
theorem remW_eight : ∀ r : Fin 1024, remW (BitVec.ofNat 32 r.val) 8#32 = BitVec.ofNat 32 (r.val % 8) := by
  decide +kernel

theorem remW_eight' (r : ℕ) (hr : r < 1024) : remW (BitVec.ofNat 32 r) 8#32 = BitVec.ofNat 32 (r % 8) :=
  remW_eight ⟨r, hr⟩

/-- The one-bit word 1 read unsigned is the extended real 1. -/
theorem uitofp_bit_one : (FloatOps.uitofp (F := Ideal) .f32 (1#1 : BitVec 1) : EReal) = 1 := by
  show ((((1#1 : BitVec 1).toNat : ℕ) : ℝ) : EReal) = 1
  simp

/-- The one-bit word 0 read unsigned is the extended real 0. -/
theorem uitofp_bit_zero : (FloatOps.uitofp (F := Ideal) .f32 (0#1 : BitVec 1) : EReal) = 0 := by
  show ((((0#1 : BitVec 1).toNat : ℕ) : ℝ) : EReal) = 0
  simp

/-- The equality comparison of two words is the bit 1 exactly when they are equal. -/
theorem cmpi_eq_word (x y : BitVec 32) : IntOp.cmpi .eq x y = if x = y then 1#1 else 0#1 := by
  show BitVec.ofBool (x == y) = _
  by_cases h : x = y
  · rw [if_pos h, beq_iff_eq.mpr h]; rfl
  · rw [if_neg h, beq_eq_false_iff_ne.mpr h]; rfl

/-- Below 2³² a natural number is determined by its 32-bit word. -/
theorem ofNat32_inj (a b : ℕ) (ha : a < 4294967296) (hb : b < 4294967296) (h : BitVec.ofNat 32 a = BitVec.ofNat 32 b) : a = b := by
  have h' := congrArg BitVec.toNat h
  simp only [BitVec.toNat_ofNat] at h'
  omega

/-- The comparison of two small numbers' words, read as a float: 1 when the numbers are equal and 0 otherwise. -/
theorem uitofp_cmpi_ofNat (a b : ℕ) (ha : a < 4294967296) (hb : b < 4294967296) :
    (FloatOps.uitofp (F := Ideal) .f32 (IntOp.cmpi .eq (BitVec.ofNat 32 a) (BitVec.ofNat 32 b)) : EReal) = if a = b then 1 else 0 := by
  rw [cmpi_eq_word]
  by_cases h : a = b
  · rw [if_pos h, if_pos (by rw [h]), uitofp_bit_one]
  · rw [if_neg h, if_neg (fun h' => h (ofNat32_inj a b ha hb h')), uitofp_bit_zero]

/-- Row r against column k: the float 1 when r % 8 = k % 8, else 0. -/
theorem nodeSel_word (r k : ℕ) (hr : r < 1024) (hk : k < 512) :
    (FloatOps.uitofp (F := Ideal) .f32 (IntOp.cmpi .eq (remW (BitVec.ofNat 32 r) 8#32) (remW (BitVec.ofNat 32 k) 8#32)) : EReal)
      = if r % 8 = k % 8 then 1 else 0 := by
  rw [remW_eight' r hr, remW_eight' k (by omega)]
  exact uitofp_cmpi_ofNat (r % 8) (k % 8) (by omega) (by omega)

/-- The 128 × 64 weight with every row repeated 8 times, as the host builds it (a reshape, two broadcasts and a
    reshape): row r holds the weight's row r / 8. -/
theorem wrows_apply (w : S128x64x1x1.Idx → EReal) (i : S1024x64.Idx) :
    shapeCast S1024x64
        (broadcastInDim S128x8x64 ![0, 1, 2] bcast_S128x1x64_S128x8x64_0_1_2
          (broadcastInDim S128x1x64 ![0, 2] bcast_S128x64_S128x1x64_0_2
            (shapeCast S128x64 w shapeCasts_S128x64x1x1_S128x64)))
        shapeCasts_S128x8x64_S1024x64 i
      = w (ix4 (⟨(i 0).val / 8, by have := idx2_lt0 i; omega⟩ : Fin 128) (⟨(i 1).val, idx2_lt1 i⟩ : Fin 64) (0 : Fin 1) (0 : Fin 1)) := by
  have h0 : (i 0).val < 1024 := idx2_lt0 i
  have h1 : (i 1).val < 64 := idx2_lt1 i
  -- row r of the [1024, 64] array is entry (r / 8, r % 8) of the [128, 8, 64] array
  refine (shapeCast_apply _ shapeCasts_S128x8x64_S1024x64 i
    (ix3 (⟨(i 0).val / 8, by omega⟩ : Fin 128) (⟨(i 0).val % 8, by omega⟩ : Fin 8) (⟨(i 1).val, h1⟩ : Fin 64)) ?_).trans ?_
  · rw [Shape.rowMajor_val_three, Shape.rowMajor_val_two]
    show ((i 0).val / 8 * 8 + (i 0).val % 8) * 64 + (i 1).val = (i 0).val * 64 + (i 1).val
    omega
  -- the broadcast along the middle axis forgets r % 8
  refine (broadcastInDim_apply _ bcast_S128x1x64_S128x8x64_0_1_2 _ _
    (ix3 (⟨(i 0).val / 8, by omega⟩ : Fin 128) (0 : Fin 1) (⟨(i 1).val, h1⟩ : Fin 64))
    (fun a => match a with | ⟨0, _⟩ => rfl | ⟨1, _⟩ => rfl | ⟨2, _⟩ => rfl)).trans ?_
  refine (broadcastInDim_apply _ bcast_S128x64_S128x1x64_0_2 _ _
    (ix2 (⟨(i 0).val / 8, by omega⟩ : Fin 128) (⟨(i 1).val, h1⟩ : Fin 64))
    (fun a => match a with | ⟨0, _⟩ => rfl | ⟨1, _⟩ => rfl)).trans ?_
  refine shapeCast_apply _ shapeCasts_S128x64x1x1_S128x64 _
    (ix4 (⟨(i 0).val / 8, by omega⟩ : Fin 128) (⟨(i 1).val, h1⟩ : Fin 64) (0 : Fin 1) (0 : Fin 1)) ?_
  rw [Shape.rowMajor_val_four, Shape.rowMajor_val_two]
  show (((i 0).val / 8 * 64 + (i 1).val) * 1 + 0) * 1 + 0 = (i 0).val / 8 * 64 + (i 1).val
  omega

/-! The coordinates of the two operand indices of the 1024 × 64 by 64 × 512 product. -/
theorem lhs_row (i : S1024x512.Idx) (q : dot_S1024x64_S64x512_S1024x512_1_0_0_1_n_n.contr.Idx) : (dot_S1024x64_S64x512_S1024x512_1_0_0_1_n_n.lhsIdx i q 0).val = (i 0).val := by
  unfold DotDims.lhsIdx
  rw [dif_neg (show ¬(0 : Fin S1024x64.rank) ∈ dot_S1024x64_S64x512_S1024x512_1_0_0_1_n_n.lhsBatch by decide),
    dif_pos (show (0 : Fin S1024x64.rank) ∈ dot_S1024x64_S64x512_S1024x512_1_0_0_1_n_n.lhsNonContracting by decide)]
  rfl
theorem lhs_col (i : S1024x512.Idx) (q : dot_S1024x64_S64x512_S1024x512_1_0_0_1_n_n.contr.Idx) : (dot_S1024x64_S64x512_S1024x512_1_0_0_1_n_n.lhsIdx i q 1).val = (q ⟨0, by decide⟩).val :=
  dot_S1024x64_S64x512_S1024x512_1_0_0_1_n_n.lhsIdx_val_of_single rfl i q
theorem rhs_row (i : S1024x512.Idx) (q : dot_S1024x64_S64x512_S1024x512_1_0_0_1_n_n.contr.Idx) : (dot_S1024x64_S64x512_S1024x512_1_0_0_1_n_n.rhsIdx i q 0).val = (q ⟨0, by decide⟩).val :=
  dot_S1024x64_S64x512_S1024x512_1_0_0_1_n_n.rhsIdx_val_of_single rfl i q
theorem rhs_col (i : S1024x512.Idx) (q : dot_S1024x64_S64x512_S1024x512_1_0_0_1_n_n.contr.Idx) : (dot_S1024x64_S64x512_S1024x512_1_0_0_1_n_n.rhsIdx i q 1).val = (i 1).val := by
  unfold DotDims.rhsIdx
  rw [dif_neg (show ¬(1 : Fin S64x512.rank) ∈ dot_S1024x64_S64x512_S1024x512_1_0_0_1_n_n.rhsBatch by decide),
    dif_pos (show (1 : Fin S64x512.rank) ∈ dot_S1024x64_S64x512_S1024x512_1_0_0_1_n_n.rhsNonContracting by decide)]
  rfl

/-- The host's product of a 1024 × 64 by a 64 × 512 array at (r, k): the sum over the 64 channels. -/
theorem dot_apply (A : FVec Ideal S1024x64 .f32) (B : FVec Ideal S64x512 .f32) (r : Fin 1024) (k : Fin 512) :
    Host.dotGeneral (F := Ideal) dot_S1024x64_S64x512_S1024x512_1_0_0_1_n_n none A B (ix2 r k) = ∑ ci : Fin 64, A (ix2 r ci) * B (ix2 ci k) := by
  show FloatOps.dotGeneral _ none _ A B (ix2 r k) = _
  rw [Ideal.dotGeneral_apply, ← Equiv.sum_comp (contrEquiv1 dot_S1024x64_S64x512_S1024x512_1_0_0_1_n_n 64 rfl rfl).symm]
  refine Finset.sum_congr rfl fun ci _ => ?_
  have hq := contrEquiv1_symm_val dot_S1024x64_S64x512_S1024x512_1_0_0_1_n_n 64 rfl rfl ci
  have el : dot_S1024x64_S64x512_S1024x512_1_0_0_1_n_n.lhsIdx (ix2 r k) ((contrEquiv1 dot_S1024x64_S64x512_S1024x512_1_0_0_1_n_n 64 rfl rfl).symm ci) = ix2 r ci :=
    funext fun a => Fin.ext (by
      match a with
      | ⟨0, _⟩ => exact lhs_row _ _
      | ⟨1, _⟩ => exact (lhs_col _ _).trans hq)
  have er : dot_S1024x64_S64x512_S1024x512_1_0_0_1_n_n.rhsIdx (ix2 r k) ((contrEquiv1 dot_S1024x64_S64x512_S1024x512_1_0_0_1_n_n 64 rfl rfl).symm ci) = ix2 ci k :=
    funext fun a => Fin.ext (by
      match a with
      | ⟨0, _⟩ => exact (rhs_row _ _).trans hq
      | ⟨1, _⟩ => exact rhs_col _ _)
  rw [el, er]

/-- One entry of the weight the host builds: of the 64 channels only ci = k / 8 meets a non-zero selector entry, and the
    node selector keeps the entry exactly when r % 8 = k % 8. Both steps use only a · 1 = a and a · 0 = 0. -/
theorem wbd_entry (w : S128x64x1x1.Idx → EReal) (r : Fin 1024) (k : Fin 512) :
    (∑ ci : Fin 64, w (ix4 (⟨r.val / 8, by have := r.isLt; omega⟩ : Fin 128) ci (0 : Fin 1) (0 : Fin 1))
        * (if ci.val = k.val / 8 then (1 : EReal) else 0))
      * (if r.val % 8 = k.val % 8 then (1 : EReal) else 0) = Cert.Spec.wbdAt w r k := by
  have hk : k.val < 512 := k.isLt
  rw [Finset.sum_eq_single (⟨k.val / 8, by omega⟩ : Fin 64)]
  · rw [if_pos rfl, mul_one]
    unfold Cert.Spec.wbdAt
    by_cases h : r.val % 8 = k.val % 8
    · rw [if_pos h, if_pos h, mul_one]
    · rw [if_neg h, if_neg h, mul_zero]
  · intro ci _ hne
    rw [if_neg (fun h => hne (Fin.ext h)), mul_zero]
  · intro h
    exact absurd (Finset.mem_univ _) h

/-- The column quotients as the host's floor division leaves them: entry (0, k) is the word of k / 8. Every one of the
    512 columns is evaluated. -/
theorem V_quot (c : Dev nD) : @Eq (IVec S1x512 32) (V m c main_v10) (fun i => BitVec.ofNat 32 ((i 1).val / 8)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  funext i
  obtain ⟨u, k, rfl⟩ : ∃ (u : Fin 1) (k : Fin 512), i = ix2 u k := ⟨i 0, i 1, eq_ix2 i⟩
  revert u k
  decide +kernel

/-- The channel selector's last three host operations: the comparison of the channel numbers, broadcast along the
    columns, with the column quotients, broadcast along the channels, read as floats. -/
def chanSelOps (Q : IVec S1x512 32) : FVec Ideal S64x512 .f32 :=
  uitofp .f32 (cmpi .eq
    (broadcastInDim S64x512 ![0, 1] bcast_S64x1_S64x512_0_1 (broadcastInDim S64x1 ![0] bcast_S64_S64x1_0 (iotaInDim S64 32 0)))
    (broadcastInDim S64x512 ![0, 1] bcast_S1x512_S64x512_0_1 Q))

theorem V_chanSel_ops (c : Dev nD) : (V m c main_v14 : S64x512.Idx → EReal) = chanSelOps (V m c main_v10) := by
  dsimp only [Gen.V, Gen.V0, chanSelOps]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp

/-- The repeated-rows weight as the region's host operations leave it. -/
theorem V_wrows (c : Dev nD) : (V m c main_v5 : FVec Ideal S1024x64 .f32)
    = fun i => (m ((c.tc : Thread nD τ).loc main_arg2) : S128x64x1x1.Idx → EReal)
        (ix4 (⟨(i 0).val / 8, by have := idx2_lt0 i; omega⟩ : Fin 128) (⟨(i 1).val, idx2_lt1 i⟩ : Fin 64) (0 : Fin 1) (0 : Fin 1)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  funext i
  exact wrows_apply (m ((c.tc : Thread nD τ).loc main_arg2)) i

/-- The channel selector: entry (ci, k) is 1 when ci = k / 8 and 0 otherwise. -/
theorem V_chanSel (c : Dev nD) : (V m c main_v14 : S64x512.Idx → EReal)
    = (fun i => if (i 0).val = (i 1).val / 8 then (1 : EReal) else (0 : EReal) : S64x512.Idx → EReal) := by
  rw [V_chanSel_ops m c, V_quot m c]
  unfold chanSelOps
  funext i
  show (FloatOps.uitofp (F := Ideal) .f32 (IntOp.cmpi .eq (BitVec.ofNat 32 (i 0).val) (BitVec.ofNat 32 ((i 1).val / 8))) : EReal) = _
  exact uitofp_cmpi_ofNat _ _ (by have := idx2_lt0 i; omega) (by have := idx2_lt1 i; omega)

/-- The node selector: entry (r, k) is 1 when r % 8 = k % 8 and 0 otherwise. -/
theorem V_nodeSel (c : Dev nD) : (V m c main_v24 : S1024x512.Idx → EReal)
    = (fun i => if (i 0).val % 8 = (i 1).val % 8 then (1 : EReal) else (0 : EReal) : S1024x512.Idx → EReal) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  funext i
  show (FloatOps.uitofp (F := Ideal) .f32 (IntOp.cmpi .eq (remW (BitVec.ofNat 32 (i 0).val) 8#32) (remW (BitVec.ofNat 32 (i 1).val) 8#32)) : EReal) = _
  exact nodeSel_word _ _ (idx2_lt0 i) (idx2_lt1 i)

/-- The three host operations that end the weight's construction: the product of a 1024 × 64 by a 64 × 512 array,
    times a 1024 × 512 array entry by entry. -/
def wbdOps (A : FVec Ideal S1024x64 .f32) (B : FVec Ideal S64x512 .f32) (C : FVec Ideal S1024x512 .f32) :
    FVec Ideal S1024x512 .f32 :=
  mulf (Host.dotGeneral (F := Ideal) dot_S1024x64_S64x512_S1024x512_1_0_0_1_n_n none A B) C

/-- The block-diagonal weight is the product of the repeated-rows weight with the channel selector, times the node
    selector, entry by entry. -/
theorem V_wbd_ops (c : Dev nD) : (V m c main_v25 : S1024x512.Idx → EReal)
    = wbdOps (V m c main_v5) (V m c main_v14) (V m c main_v24) := by
  dsimp only [Gen.V, Gen.V0, wbdOps]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp

/-- A [128] array cast to a [128, 1, 1] column reads, at (co, 0, 0), the operand at co: the two row-major positions
    agree because the two trailing coordinates are below 1. -/
theorem bias_column_apply (x : S128.Idx → EReal) (i : S128x1x1.Idx) :
    shapeCast S128x1x1 x shapeCasts_S128_S128x1x1 i = x (ix1 (i 0 : Fin 128)) := by
  refine shapeCast_apply x shapeCasts_S128_S128x1x1 i (ix1 (i 0 : Fin 128)) ?_
  rw [Shape.rowMajor_val_one, Shape.rowMajor_val_three]
  have h1 : (i 1).val < 1 := (i 1).isLt
  have h2 : (i 2).val < 1 := (i 2).isLt
  show (i 0).val = ((i 0).val * 1 + (i 1).val) * 1 + (i 2).val
  omega

/-- Window 0's array: the input with its last two axes exchanged, [n, ci, v, t] ↦ x[n, ci, t, v]. -/
theorem V_x (c : Dev nD) : (V m c main_v0 : S64x64x16x256.Idx → EReal)
    = fun i => (m ((c.tc : Thread nD τ).loc main_arg0) : S64x64x256x16.Idx → EReal) (ix4 (i 0 : Fin 64) (i 1 : Fin 64) (i 3 : Fin 256) (i 2 : Fin 16)) := by
  -- the host operations before the region leave the transpose of the launched input in this array
  have e : (V m c main_v0 : S64x64x16x256.Idx → EReal)
      = transpose S64x64x16x256 [0, 1, 3, 2] (m ((c.tc : Thread nD τ).loc main_arg0) : S64x64x256x16.Idx → EReal)
          transposes_S64x64x256x16_S64x64x16x256_0_1_3_2 := by
    dsimp only [Gen.V, Gen.V0]
    simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
    after_results
  -- result axis b reads source axis [0, 1, 3, 2][b]
  refine e.trans (funext fun i => ?_)
  exact transpose_apply _ _ _ i _ (fun b => match b with | ⟨0, _⟩ => rfl | ⟨1, _⟩ => rfl | ⟨2, _⟩ => rfl | ⟨3, _⟩ => rfl)

/-- Window 3's array: the mask with its last two axes exchanged, [n, v, t] ↦ mask[n, t, v]. -/
theorem V_mask (c : Dev nD) : (V m c main_v1 : S64x16x256.Idx → EReal)
    = fun i => (m ((c.tc : Thread nD τ).loc main_arg4) : S64x256x16.Idx → EReal) (ix3 (i 0 : Fin 64) (i 2 : Fin 256) (i 1 : Fin 16)) := by
  have e : (V m c main_v1 : S64x16x256.Idx → EReal)
      = transpose S64x16x256 [0, 2, 1] (m ((c.tc : Thread nD τ).loc main_arg4) : S64x256x16.Idx → EReal)
          transposes_S64x256x16_S64x16x256_0_2_1 := by
    dsimp only [Gen.V, Gen.V0]
    simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
    after_results
  refine e.trans (funext fun i => ?_)
  exact transpose_apply _ _ _ i _ (fun b => match b with | ⟨0, _⟩ => rfl | ⟨1, _⟩ => rfl | ⟨2, _⟩ => rfl)

/-- Window 2's array: the bias as a [128, 1, 1] column. -/
theorem V_bias (c : Dev nD) : (V m c main_v26 : S128x1x1.Idx → EReal)
    = fun i => (m ((c.tc : Thread nD τ).loc main_arg3) : S128.Idx → EReal) (ix1 (i 0 : Fin 128)) := by
  have e : (V m c main_v26 : S128x1x1.Idx → EReal)
      = shapeCast S128x1x1 (m ((c.tc : Thread nD τ).loc main_arg3) : S128.Idx → EReal) shapeCasts_S128_S128x1x1 := by
    dsimp only [Gen.V, Gen.V0]
    simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
    after_results_simp
    all_goals rfl
  refine e.trans (funext fun i => ?_)
  exact bias_column_apply _ i

/-- Window 1's array: the block-diagonal weight. -/
theorem V_wbd (c : Dev nD) : (V m c main_v25 : S1024x512.Idx → EReal) = Cert.Spec.wbd (m ((c.tc : Thread nD τ).loc main_arg2)) := by
  refine (V_wbd_ops m c).trans ?_
  rw [V_wrows m c, V_chanSel m c, V_nodeSel m c]
  unfold wbdOps
  funext i
  obtain ⟨r, k, rfl⟩ : ∃ (r : Fin 1024) (k : Fin 512), i = ix2 r k := ⟨i 0, i 1, eq_ix2 i⟩
  rw [mulf_apply, dot_apply]
  exact wbd_entry (m ((c.tc : Thread nD τ).loc main_arg2)) r k

end Cert.KerHost

end
-- ==== Proof.KerTile.lean ====
/-
  One 8-node group of one sample, as the kernel body computes it: from the group's [1, 64, 8, 256] slab of the input,
  the [1024, 512] weight, the [128, 1, 1] bias column and the group's [1, 8, 256] slab of the mask, the stored
  [1, 128, 8, 256] tile. Read at output channel co, node g of the group and time step t it is
      (∑ k < 512, weight[co·8 + g, k] · slab[0, k / 8, k % 8, t] + bias[co, 0, 0]) · mask[0, g, t]:
  the slab is flattened to 512 rows (row k is channel k / 8, node k % 8), multiplied by the weight into a zero
  accumulator, the 1024 rows of the product split back into (co, g), the bias and the mask broadcast.
  The body does this sixteen times (eight samples, two groups); the sixteen stored values are spelled through
  differently cut sub-terms, and are all this one term.
-/
import proofs.«139780_g2000502679770559_pallasbulk_20_26_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx

namespace Cert.KerTile

open Cert.KernelIdeal Cert.KernelIdeal.Gen

section layout
variable {α : Type}

/-- [64, 8, 256] flattened to [512, 256]: row k is channel k / 8, node k % 8. -/
theorem flat_apply (x : S64x8x256.Idx → α) (h : S64x8x256.ShapeCasts S512x256) (k : Fin 512) (t : Fin 256) :
    shapeCast S512x256 x h (ix2 k t)
      = x (ix3 (⟨k.val / 8, by have := k.isLt; omega⟩ : Fin 64) (⟨k.val % 8, Nat.mod_lt _ (by decide)⟩ : Fin 8) t) :=
  shapeCast_apply x h _ _ (by
    rw [Shape.rowMajor_val_three, Shape.rowMajor_val_two]
    show (k.val / 8 * 8 + k.val % 8) * 256 + t.val = k.val * 256 + t.val
    omega)

/-- [1024, 256] split to [128, 8, 256]: entry (co, g) is row co · 8 + g. -/
theorem split_apply (x : S1024x256.Idx → α) (h : S1024x256.ShapeCasts S128x8x256) (co : Fin 128) (g : Fin 8) (t : Fin 256) :
    shapeCast S128x8x256 x h (ix3 co g t)
      = x (ix2 (⟨co.val * 8 + g.val, by have := co.isLt; have := g.isLt; omega⟩ : Fin 1024) t) :=
  shapeCast_apply x h _ _ (by
    rw [Shape.rowMajor_val_three, Shape.rowMajor_val_two]
    show (co.val * 8 + g.val) * 256 + t.val = (co.val * 8 + g.val) * 256 + t.val
    rfl)

/-- The bias column [128, 1, 1] broadcast to [128, 8, 256] reads its channel's entry. -/
theorem bias_apply (x : S128x1x1.Idx → α) (h : S128x1x1.Broadcasts S128x8x256) (co : Fin 128) (g : Fin 8) (t : Fin 256) :
    broadcastTo S128x8x256 x h (ix3 co g t) = x (ix3 co (0 : Fin 1) (0 : Fin 1)) := by
  refine broadcastTo_apply x h _ _ fun a => ?_
  match a with
  | ⟨0, _⟩ => rfl
  | ⟨1, _⟩ => rfl
  | ⟨2, _⟩ => rfl

/-- The mask slab [1, 8, 256] broadcast to [128, 8, 256] reads the same (node, time) entry for every channel. -/
theorem mask_apply (x : S1x8x256.Idx → α) (h : S1x8x256.Broadcasts S128x8x256) (co : Fin 128) (g : Fin 8) (t : Fin 256) :
    broadcastTo S128x8x256 x h (ix3 co g t) = x (ix3 (0 : Fin 1) g t) := by
  refine broadcastTo_apply x h _ _ fun a => ?_
  match a with
  | ⟨0, _⟩ => rfl
  | ⟨1, _⟩ => rfl
  | ⟨2, _⟩ => rfl

end layout

/-- The [1024, 512] by [512, 256] product into a zero accumulator, read at (r, t): the sum over the 512 contracted rows. -/
theorem mm_apply (A : FVec Ideal S1024x512 .f32) (B : FVec Ideal S512x256 .f32) (r : Fin 1024) (t : Fin 256) :
    matmul (F := Ideal) dot_S1024x512_S512x256_S1024x256_1_0_0_1_n_n none A B (constant (F := Ideal) S1024x256 .f32 0x00000000#32) (ix2 r t)
      = ∑ k : Fin 512, A (ix2 r k) * B (ix2 k t) := by
  show FloatOps.matmul _ none A B _ (ix2 r t) = _
  rw [Ideal.matmul_constant_zero_apply,
    ← Equiv.sum_comp (contrEquiv1 dot_S1024x512_S512x256_S1024x256_1_0_0_1_n_n 512 rfl rfl).symm]
  refine Finset.sum_congr rfl fun c _ => ?_
  have c2 := contrEquiv1_symm_val dot_S1024x512_S512x256_S1024x256_1_0_0_1_n_n 512 rfl rfl c
  have l2 : dot_S1024x512_S512x256_S1024x256_1_0_0_1_n_n.lhsIdx (ix2 r t) ((contrEquiv1 _ 512 rfl rfl).symm c) = ix2 r c := by
    funext ax; apply Fin.ext
    match ax with
    | ⟨0, _⟩ => simp [DotDims.lhsIdx, dot_S1024x512_S512x256_S1024x256_1_0_0_1_n_n]; rfl
    | ⟨1, _⟩ => simp [DotDims.lhsIdx, dot_S1024x512_S512x256_S1024x256_1_0_0_1_n_n]; exact c2
  have r2 : dot_S1024x512_S512x256_S1024x256_1_0_0_1_n_n.rhsIdx (ix2 r t) ((contrEquiv1 _ 512 rfl rfl).symm c) = ix2 c t := by
    funext ax; apply Fin.ext
    match ax with
    | ⟨0, _⟩ => simp [DotDims.rhsIdx, dot_S1024x512_S512x256_S1024x256_1_0_0_1_n_n]; exact c2
    | ⟨1, _⟩ => simp [DotDims.rhsIdx, dot_S1024x512_S512x256_S1024x256_1_0_0_1_n_n]; rfl
  rw [l2, r2]

/-- The stored tile read at an index. -/
theorem tile_apply (xa : Vec Ideal S1x64x8x256 .f32) (wv : Vec Ideal S1024x512 .f32) (bv : Vec Ideal S128x1x1 .f32) (mv : Vec Ideal S1x8x256 .f32)
    (co : Fin 128) (g : Fin 8) (t : Fin 256) :
    (k0_pay2 (F := Ideal) xa wv bv mv : S1x128x8x256.Idx → EReal) (ix4 (0 : Fin 1) co g t)
      = ((∑ k : Fin 512, (wv : S1024x512.Idx → EReal) (ix2 (⟨co.val * 8 + g.val, by have := co.isLt; have := g.isLt; omega⟩ : Fin 1024) k)
            * (xa : S1x64x8x256.Idx → EReal) (ix4 (0 : Fin 1) (⟨k.val / 8, by have := k.isLt; omega⟩ : Fin 64) (⟨k.val % 8, Nat.mod_lt _ (by decide)⟩ : Fin 8) t))
          + (bv : S128x1x1.Idx → EReal) (ix3 co (0 : Fin 1) (0 : Fin 1))) * (mv : S1x8x256.Idx → EReal) (ix3 (0 : Fin 1) g t) := by
  unfold k0_pay2
  refine (shapeCast_abc_1abc_apply _ _ (0 : Fin 1) co g t).trans ?_
  rw [mulf_apply, addf_apply, split_apply, bias_apply, mask_apply, shapeCast_self, shapeCast_self, shapeCast_shapeCast, mm_apply]
  refine congrArg (· * _) (congrArg (· + _) (Finset.sum_congr rfl fun k _ => ?_))
  rw [flat_apply, shapeCast_1abc_abc_apply]

section spellings
variable {F : FTy → Type} [FloatOps F]
variable (xa : Vec F S1x64x8x256 .f32) (wv : Vec F S1024x512 .f32) (bv : Vec F S128x1x1 .f32) (mv : Vec F S1x8x256 .f32)

theorem pay_r7 : k0_pay4 (k0_pay3 xa wv bv) mv = k0_pay2 xa wv bv mv := rfl
theorem pay_r10 : k0_pay5 xa wv bv mv = k0_pay2 xa wv bv mv := rfl
theorem pay_r13 : k0_pay7 (k0_pay6 xa) wv bv mv = k0_pay2 xa wv bv mv := rfl
theorem pay_r16 : k0_pay9 (k0_pay8 xa wv bv mv) = k0_pay2 xa wv bv mv := rfl
theorem pay_r19 : k0_pay10 xa wv bv mv = k0_pay2 xa wv bv mv := rfl
theorem pay_r22 : k0_pay12 (k0_pay11 xa wv) bv mv = k0_pay2 xa wv bv mv := rfl
theorem pay_r25 : k0_pay13 xa wv bv mv = k0_pay2 xa wv bv mv := rfl
theorem pay_r28 : k0_pay14 xa wv bv mv = k0_pay2 xa wv bv mv := rfl
theorem pay_r31 : k0_pay16 (k0_pay15 xa wv bv) mv = k0_pay2 xa wv bv mv := rfl
theorem pay_r34 : k0_pay17 xa wv bv mv = k0_pay2 xa wv bv mv := rfl
theorem pay_r37 : k0_pay20 (k0_pay18 xa) (k0_pay19 wv) bv mv = k0_pay2 xa wv bv mv := rfl
theorem pay_r40 : k0_pay22 (k0_pay21 xa wv bv mv) = k0_pay2 xa wv bv mv := rfl
theorem pay_r43 : k0_pay23 xa wv bv mv = k0_pay2 xa wv bv mv := rfl
theorem pay_r46 : k0_pay26 (k0_pay24 xa wv) (k0_pay25 bv) mv = k0_pay2 xa wv bv mv := rfl
theorem pay_r49 : k0_pay1 (k0_pay27 xa wv bv mv) = k0_pay2 xa wv bv mv := rfl

end spellings

end Cert.KerTile

end
-- ==== Proof.KerPiece.lean ====
/-
  One store of the kernel body, read at the indices of its rectangle.

  At a grid point the body holds a block of 8 samples: x0 = the input block [8, 64, 16, 256] (sample, channel, node,
  time), x1 = the [1024, 512] weight, x2 = the [128, 1, 1] bias column, x3 = the mask block [8, 16, 256]. It makes 16
  stores into the output block [8, 128, 16, 256], one per sample i and per half lo ∈ {0, 8} of the 16 nodes; each stores
  the tile computed from rows (i, ·, lo … lo + 7, ·) of x0 and rows (i, lo … lo + 7, ·) of x3 at the rectangle with
  offsets (i, 0, lo, 0).  All 16 stored tiles are restrictions of ONE function of the block's index (sample z0,
  output channel z1, node z2, time z3):
      (∑ k < 512, x1[z1·8 + z2 % 8, k] · x0[z0, k / 8, (z2 / 8)·8 + k % 8, z3] + x2[z1, 0, 0]) · x3[z0, z2, z3],
  because inside the rectangle at (i, 0, lo, 0) the node is z2 = lo + g with g < 8, so z2 % 8 = g and (z2 / 8)·8 = lo.
-/
import proofs.«139780_g2000502679770559_pallasbulk_20_26_alg».proof.Proof.Gen.KernelIdeal.Frame
import proofs.«139780_g2000502679770559_pallasbulk_20_26_alg».proof.Proof.KerTile
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx

namespace Cert.KerSide

open Cert.KernelIdeal Cert.KernelIdeal.Gen

/-- The output block's entry at sample i, output channel co, node v, time tt, from the four input blocks. -/
def blkAt (x0 : S8x64x16x256.Idx → EReal) (x1 : S1024x512.Idx → EReal) (x2 : S128x1x1.Idx → EReal) (x3 : S8x16x256.Idx → EReal)
    (i : Fin 8) (co : Fin 128) (v : Fin 16) (tt : Fin 256) : EReal :=
  ((∑ k : Fin 512, x1 (ix2 (⟨co.val * 8 + v.val % 8, by have := co.isLt; omega⟩ : Fin 1024) k)
        * x0 (ix4 i (⟨k.val / 8, by have := k.isLt; omega⟩ : Fin 64) (⟨v.val / 8 * 8 + k.val % 8, by have := v.isLt; omega⟩ : Fin 16) tt))
      + x2 (ix3 co (0 : Fin 1) (0 : Fin 1))) * x3 (ix3 i v tt)

/-- The output block as one function of its index. -/
def blkFn (x0 : S8x64x16x256.Idx → EReal) (x1 : S1024x512.Idx → EReal) (x2 : S128x1x1.Idx → EReal) (x3 : S8x16x256.Idx → EReal) :
    S8x128x16x256.Idx → EReal :=
  fun z => blkAt x0 x1 x2 x3 (z 0) (z 1) (z 2) (z 3)

/-- The tile stored at the rectangle with offsets (oi, 0, lo, 0) is the block function there. -/
theorem piece_apply (x0 : Vec Ideal S8x64x16x256 .f32) (x1 : Vec Ideal S1024x512 .f32) (x2 : Vec Ideal S128x1x1 .f32) (x3 : Vec Ideal S8x16x256 .f32)
    (oi lo : Nat) (hoi : oi < 8) (hlo : lo = 0 ∨ lo = 8)
    (hx : ∀ a, (![oi, 0, lo, 0] : Fin 4 → Nat) a + S1x64x8x256.size a ≤ S8x64x16x256.size a)
    (hm : ∀ a, (![oi, lo, 0] : Fin 3 → Nat) a + S1x8x256.size a ≤ S8x16x256.size a)
    (ho : ∀ a, (![oi, 0, lo, 0] : Fin 4 → Nat) a + S1x128x8x256.size a ≤ S8x128x16x256.size a)
    (y : S1x128x8x256.Idx) :
    (k0_pay2 (F := Ideal) (View.ld x0 (Rect.unit (s := S8x64x16x256) ![oi, 0, lo, 0] S1x64x8x256.size hx)) (View.ld x1 r0_1) (View.ld x2 r0_2)
        (View.ld x3 (Rect.unit (s := S8x16x256) ![oi, lo, 0] S1x8x256.size hm)) : S1x128x8x256.Idx → EReal) y
      = blkFn x0 x1 x2 x3 ((Rect.unit (s := S8x128x16x256) ![oi, 0, lo, 0] S1x128x8x256.size ho).emb y) := by
  obtain ⟨y0, co, g, tt, rfl⟩ : ∃ (y0 : Fin 1) (co : Fin 128) (g : Fin 8) (tt : Fin 256), y = ix4 y0 co g tt := ⟨y 0, y 1, y 2, y 3, eq_ix4 y⟩
  obtain rfl : y0 = 0 := Subsingleton.elim _ _
  rw [Cert.KerTile.tile_apply]
  have hg : g.val < 8 := g.isLt
  unfold blkFn blkAt
  refine congrArg₂ (· * ·) (congrArg₂ (· + ·) (Finset.sum_congr rfl fun k _ => congrArg₂ (· * ·) ?_ ?_) ?_) ?_
  · -- the weight entry: row co·8 + g, since the node lo + g has remainder g
    refine congrArg x1 (funext fun a => Fin.ext ?_)
    match a with
    | ⟨0, _⟩ =>
      show 0 + 1 * (co.val * 8 + g.val) = (0 + 1 * co.val) * 8 + (lo + 1 * g.val) % 8
      rcases hlo with rfl | rfl <;> omega
    | ⟨1, _⟩ => show 0 + 1 * k.val = k.val; omega
  · -- the input entry: sample oi, channel k / 8, node lo + k % 8
    refine congrArg x0 (funext fun a => Fin.ext ?_)
    match a with
    | ⟨0, _⟩ => show oi + 1 * 0 = oi + 1 * 0; rfl
    | ⟨1, _⟩ => show 0 + 1 * (k.val / 8) = k.val / 8; omega
    | ⟨2, _⟩ =>
      show lo + 1 * (k.val % 8) = (lo + 1 * g.val) / 8 * 8 + k.val % 8
      rcases hlo with rfl | rfl <;> omega
    | ⟨3, _⟩ => show 0 + 1 * tt.val = 0 + 1 * tt.val; rfl
  · -- the bias entry of the output channel
    refine congrArg x2 (funext fun a => Fin.ext ?_)
    match a with
    | ⟨0, _⟩ => show 0 + 1 * co.val = 0 + 1 * co.val; rfl
    | ⟨1, _⟩ => show 0 + 1 * 0 = 0; rfl
    | ⟨2, _⟩ => show 0 + 1 * 0 = 0; rfl
  · -- the mask entry of the sample, node and time
    refine congrArg x3 (funext fun a => Fin.ext ?_)
    match a with
    | ⟨0, _⟩ => show oi + 1 * 0 = oi + 1 * 0; rfl
    | ⟨1, _⟩ => show lo + 1 * g.val = lo + 1 * g.val; rfl
    | ⟨2, _⟩ => show 0 + 1 * tt.val = 0 + 1 * tt.val; rfl

end Cert.KerSide

end
-- ==== Proof.KerBlocks.lean ====
/-
  The kernel program's pallas_call read as a value, and the program's run.

  At grid point t (t < 8) the body's 16 stores fill the output block [8, 128, 16, 256]; each stored tile is a
  restriction of one block function (KerPiece.lean), so the block after the body IS that function. Read at the
  point's input blocks — samples 8t … 8t + 7 of the transposed input and mask, the whole block-diagonal weight and
  the whole bias column (KerHost.lean) — the block function's contraction over 512 columns collapses to the
  contraction over the 64 channels (Spec.collapse), and the block is block t of
      outK[n, co, v, t'] = conv[n, co, t', v].
  The eight blocks tile the array along the sample axis, so the array after the region is outK; the host transpose
  after the region exchanges the last two axes back, leaving conv.
-/
import proofs.«139780_g2000502679770559_pallasbulk_20_26_alg».proof.Proof.Gen.KernelIdeal.Frame
import proofs.«139780_g2000502679770559_pallasbulk_20_26_alg».proof.Proof.Spec
import proofs.«139780_g2000502679770559_pallasbulk_20_26_alg».proof.Proof.KerHost
import proofs.«139780_g2000502679770559_pallasbulk_20_26_alg».proof.Proof.KerPiece
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KerSide

open Cert.KernelIdeal Cert.KernelIdeal.Gen

/-! ## The body's sixteen stores are one block function -/

/-- What the body leaves in the output block: the block function of the four input blocks. -/
theorem out_eq_blkFn (x0 : Vec Ideal S8x64x16x256 .f32) (x1 : Vec Ideal S1024x512 .f32) (x2 : Vec Ideal S128x1x1 .f32) (x3 : Vec Ideal S8x16x256 .f32) :
    (out0_4 (F := Ideal) x0 x1 x2 x3 : S8x128x16x256.Idx → EReal) = blkFn x0 x1 x2 x3 := by
  funext y
  unfold out0_4
  refine View.canon_apply_of_pieces (Val := Elt Ideal) (blkFn x0 x1 x2 x3 : S8x128x16x256.Idx → Elt Ideal .f32) _ ?_ y (cover0_4 _ _ _ _ _ _ _ _ _ _ _ _ _ _ _ _ y)
  intro p hp x
  simp only [List.mem_cons, List.mem_nil_iff, or_false] at hp
  rcases hp with rfl | rfl | rfl | rfl | rfl | rfl | rfl | rfl | rfl | rfl | rfl | rfl | rfl | rfl | rfl | rfl
  · refine (congrFun (Cert.KerTile.pay_r49 _ _ _ _) x).trans ?_
    exact piece_apply x0 x1 x2 x3 7 8 (by omega) (Or.inr rfl) (by decide) (by decide) (by decide) x
  · refine (congrFun (Cert.KerTile.pay_r46 _ _ _ _) x).trans ?_
    exact piece_apply x0 x1 x2 x3 7 0 (by omega) (Or.inl rfl) (by decide) (by decide) (by decide) x
  · refine (congrFun (Cert.KerTile.pay_r43 _ _ _ _) x).trans ?_
    exact piece_apply x0 x1 x2 x3 6 8 (by omega) (Or.inr rfl) (by decide) (by decide) (by decide) x
  · refine (congrFun (Cert.KerTile.pay_r40 _ _ _ _) x).trans ?_
    exact piece_apply x0 x1 x2 x3 6 0 (by omega) (Or.inl rfl) (by decide) (by decide) (by decide) x
  · refine (congrFun (Cert.KerTile.pay_r37 _ _ _ _) x).trans ?_
    exact piece_apply x0 x1 x2 x3 5 8 (by omega) (Or.inr rfl) (by decide) (by decide) (by decide) x
  · refine (congrFun (Cert.KerTile.pay_r34 _ _ _ _) x).trans ?_
    exact piece_apply x0 x1 x2 x3 5 0 (by omega) (Or.inl rfl) (by decide) (by decide) (by decide) x
  · refine (congrFun (Cert.KerTile.pay_r31 _ _ _ _) x).trans ?_
    exact piece_apply x0 x1 x2 x3 4 8 (by omega) (Or.inr rfl) (by decide) (by decide) (by decide) x
  · refine (congrFun (Cert.KerTile.pay_r28 _ _ _ _) x).trans ?_
    exact piece_apply x0 x1 x2 x3 4 0 (by omega) (Or.inl rfl) (by decide) (by decide) (by decide) x
  · refine (congrFun (Cert.KerTile.pay_r25 _ _ _ _) x).trans ?_
    exact piece_apply x0 x1 x2 x3 3 8 (by omega) (Or.inr rfl) (by decide) (by decide) (by decide) x
  · refine (congrFun (Cert.KerTile.pay_r22 _ _ _ _) x).trans ?_
    exact piece_apply x0 x1 x2 x3 3 0 (by omega) (Or.inl rfl) (by decide) (by decide) (by decide) x
  · refine (congrFun (Cert.KerTile.pay_r19 _ _ _ _) x).trans ?_
    exact piece_apply x0 x1 x2 x3 2 8 (by omega) (Or.inr rfl) (by decide) (by decide) (by decide) x
  · refine (congrFun (Cert.KerTile.pay_r16 _ _ _ _) x).trans ?_
    exact piece_apply x0 x1 x2 x3 2 0 (by omega) (Or.inl rfl) (by decide) (by decide) (by decide) x
  · refine (congrFun (Cert.KerTile.pay_r13 _ _ _ _) x).trans ?_
    exact piece_apply x0 x1 x2 x3 1 8 (by omega) (Or.inr rfl) (by decide) (by decide) (by decide) x
  · refine (congrFun (Cert.KerTile.pay_r10 _ _ _ _) x).trans ?_
    exact piece_apply x0 x1 x2 x3 1 0 (by omega) (Or.inl rfl) (by decide) (by decide) (by decide) x
  · refine (congrFun (Cert.KerTile.pay_r7 _ _ _ _) x).trans ?_
    exact piece_apply x0 x1 x2 x3 0 8 (by omega) (Or.inr rfl) (by decide) (by decide) (by decide) x
  · exact piece_apply x0 x1 x2 x3 0 0 (by omega) (Or.inl rfl) (by decide) (by decide) (by decide) x

variable (m : (ℓ : Loc nD τ sig) → Buf (Elt Ideal) ℓ) (ρ : Dev nD → PrngReg)

/-! ## The blocks of the input windows, read at an index -/

/-- The printed index maps over the grid of 8 points: the input, the mask and the output move along the sample axis
    with the point; the weight and the bias stay. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 4) = t.val ∧ win0_4.index t (1 : Fin 4) = 0 ∧ win0_4.index t (2 : Fin 4) = 0 ∧ win0_4.index t (3 : Fin 4) = 0 :=
  (by decide +kernel : ∀ t : Fin grid0.N, _)

theorem t_lt (t : Fin cfg0.N) : t.val < 8 := by have h := t.isLt; have hN : cfg0.N = 8 := N_0; omega

/-- The input block at point t: sample 8t + a of the input, node and time exchanged. -/
theorem iblk0_apply (c : Dev nD) (t : Fin cfg0.N) (a : Fin 8) (ci : Fin 64) (v : Fin 16) (tt : Fin 256) :
    (iblk m c 0 t : S8x64x16x256.Idx → EReal) (ix4 a ci v tt)
      = (m ((c.tc : Thread nD τ).loc main_arg0) : S64x64x256x16.Idx → EReal) (ix4 (⟨t.val * 8 + a.val, by have := t_lt t; have := a.isLt; omega⟩ : Fin 64) ci tt v) := by
  obtain ⟨e0, e1, e2, e3, -⟩ := idx_facts t
  show (V m c main_v0 : S64x64x16x256.Idx → EReal) (((cfg0.win 0).blk t).view.emb (ix4 a ci v tt)) = _
  rw [Cert.KerHost.V_x m c]
  refine congrArg (m ((c.tc : Thread nD τ).loc main_arg0) : S64x64x256x16.Idx → EReal) (funext fun d => Fin.ext ?_)
  match d with
  | ⟨0, _⟩ => show win0_0.index t (0 : Fin 4) * 8 + 1 * a.val = t.val * 8 + a.val; rw [e0]; omega
  | ⟨1, _⟩ => show win0_0.index t (1 : Fin 4) * 64 + 1 * ci.val = ci.val; rw [e1]; omega
  | ⟨2, _⟩ => show win0_0.index t (3 : Fin 4) * 256 + 1 * tt.val = tt.val; rw [e3]; omega
  | ⟨3, _⟩ => show win0_0.index t (2 : Fin 4) * 16 + 1 * v.val = v.val; rw [e2]; omega

/-- The weight block at every point: the whole block-diagonal weight. -/
theorem iblk1_apply (c : Dev nD) (t : Fin cfg0.N) (r : Fin 1024) (k : Fin 512) :
    (iblk m c 1 t : S1024x512.Idx → EReal) (ix2 r k) = Cert.Spec.wbdAt (m ((c.tc : Thread nD τ).loc main_arg2)) r k := by
  obtain ⟨-, -, -, -, e4, e5, -⟩ := idx_facts t
  have he : ((cfg0.win 1).blk t).view.emb (ix2 r k) = (ix2 r k : S1024x512.Idx) := funext fun d => Fin.ext (by
    match d with
    | ⟨0, _⟩ => show win0_1.index t (0 : Fin 2) * 1024 + 1 * r.val = r.val; rw [e4]; omega
    | ⟨1, _⟩ => show win0_1.index t (1 : Fin 2) * 512 + 1 * k.val = k.val; rw [e5]; omega)
  show (V m c main_v25 : S1024x512.Idx → EReal) (((cfg0.win 1).blk t).view.emb (ix2 r k)) = _
  rw [Cert.KerHost.V_wbd m c, he]
  rfl

/-- The bias block at every point: the whole bias column. -/
theorem iblk2_apply (c : Dev nD) (t : Fin cfg0.N) (co : Fin 128) :
    (iblk m c 2 t : S128x1x1.Idx → EReal) (ix3 co (0 : Fin 1) (0 : Fin 1)) = (m ((c.tc : Thread nD τ).loc main_arg3) : S128.Idx → EReal) (ix1 co) := by
  obtain ⟨-, -, -, -, -, -, e6, -⟩ := idx_facts t
  show (V m c main_v26 : S128x1x1.Idx → EReal) (((cfg0.win 2).blk t).view.emb (ix3 co (0 : Fin 1) (0 : Fin 1))) = _
  rw [Cert.KerHost.V_bias m c]
  refine congrArg (m ((c.tc : Thread nD τ).loc main_arg3) : S128.Idx → EReal) (funext fun d => Fin.ext ?_)
  match d with
  | ⟨0, _⟩ => show win0_2.index t (0 : Fin 3) * 128 + 1 * co.val = co.val; rw [e6]; omega

/-- The mask block at point t: sample 8t + a of the mask, node and time exchanged. -/
theorem iblk3_apply (c : Dev nD) (t : Fin cfg0.N) (a : Fin 8) (v : Fin 16) (tt : Fin 256) :
    (iblk m c 3 t : S8x16x256.Idx → EReal) (ix3 a v tt)
      = (m ((c.tc : Thread nD τ).loc main_arg4) : S64x256x16.Idx → EReal) (ix3 (⟨t.val * 8 + a.val, by have := t_lt t; have := a.isLt; omega⟩ : Fin 64) tt v) := by
  obtain ⟨-, -, -, -, -, -, -, -, -, e9, e10, e11, -⟩ := idx_facts t
  show (V m c main_v1 : S64x16x256.Idx → EReal) (((cfg0.win 3).blk t).view.emb (ix3 a v tt)) = _
  rw [Cert.KerHost.V_mask m c]
  refine congrArg (m ((c.tc : Thread nD τ).loc main_arg4) : S64x256x16.Idx → EReal) (funext fun d => Fin.ext ?_)
  match d with
  | ⟨0, _⟩ => show win0_3.index t (0 : Fin 3) * 8 + 1 * a.val = t.val * 8 + a.val; rw [e9]; omega
  | ⟨1, _⟩ => show win0_3.index t (2 : Fin 3) * 256 + 1 * tt.val = tt.val; rw [e11]; omega
  | ⟨2, _⟩ => show win0_3.index t (1 : Fin 3) * 16 + 1 * v.val = v.val; rw [e10]; omega

/-! ## The block a point leaves is a block of the result -/

/-- The pallas_call's result array: the masked convolution with node before time, [n, co, v, t'] ↦ conv[n, co, t', v]. -/
def outK (c : Dev nD) : S64x128x16x256.Idx → EReal :=
  fun i => Cert.Spec.conv (m ((c.tc : Thread nD τ).loc main_arg0)) (m ((c.tc : Thread nD τ).loc main_arg2)) (m ((c.tc : Thread nD τ).loc main_arg3)) (m ((c.tc : Thread nD τ).loc main_arg4))
    (ix4 (i 0 : Fin 64) (i 1 : Fin 128) (i 3 : Fin 256) (i 2 : Fin 16))

/-- The block function at the point's input blocks is block t of the result: the contraction over the 512 columns of
    the block-diagonal weight collapses to the contraction over the 64 channels. -/
theorem blk_eq (c : Dev nD) (t : Fin cfg0.N) :
    blkFn (iblk m c 0 t) (iblk m c 1 t) (iblk m c 2 t) (iblk m c 3 t)
      = ((cfg0.win 4).blk t).view.read (Elt Ideal) (outK m c) := by
  obtain ⟨-, -, -, -, -, -, -, -, -, -, -, -, e12, e13, e14, e15⟩ := idx_facts t
  funext z
  obtain ⟨a, co, v, tt, rfl⟩ : ∃ (a : Fin 8) (co : Fin 128) (v : Fin 16) (tt : Fin 256), z = ix4 a co v tt := ⟨z 0, z 1, z 2, z 3, eq_ix4 z⟩
  have ht := t_lt t
  have hv := v.isLt
  have he : ((cfg0.win 4).blk t).view.emb (ix4 a co v tt)
      = (ix4 (⟨t.val * 8 + a.val, by have := a.isLt; omega⟩ : Fin 64) co v tt : S64x128x16x256.Idx) := funext fun d => Fin.ext (by
    match d with
    | ⟨0, _⟩ => show win0_4.index t (0 : Fin 4) * 8 + 1 * a.val = t.val * 8 + a.val; rw [e12]; omega
    | ⟨1, _⟩ => show win0_4.index t (1 : Fin 4) * 128 + 1 * co.val = co.val; rw [e13]; omega
    | ⟨2, _⟩ => show win0_4.index t (2 : Fin 4) * 16 + 1 * v.val = v.val; rw [e14]; omega
    | ⟨3, _⟩ => show win0_4.index t (3 : Fin 4) * 256 + 1 * tt.val = tt.val; rw [e15]; omega)
  show blkAt (iblk m c 0 t) (iblk m c 1 t) (iblk m c 2 t) (iblk m c 3 t) a co v tt = outK m c (((cfg0.win 4).blk t).view.emb (ix4 a co v tt))
  rw [he]
  unfold blkAt
  simp only [iblk0_apply, iblk1_apply, iblk2_apply, iblk3_apply]
  -- the 512-column contraction against row co·8 + v % 8 of the block-diagonal weight is the 64-channel contraction
  have hc := Cert.Spec.collapse (m ((c.tc : Thread nD τ).loc main_arg2))
    (fun ci g' => (m ((c.tc : Thread nD τ).loc main_arg0) : S64x64x256x16.Idx → EReal) (ix4 (⟨t.val * 8 + a.val, by have := a.isLt; omega⟩ : Fin 64) ci tt (⟨v.val / 8 * 8 + g'.val, by have := g'.isLt; omega⟩ : Fin 16)))
    co (⟨v.val % 8, Nat.mod_lt _ (by decide)⟩ : Fin 8)
  have hvv : (⟨v.val / 8 * 8 + v.val % 8, by omega⟩ : Fin 16) = v := Fin.ext (by show v.val / 8 * 8 + v.val % 8 = v.val; omega)
  dsimp only at hc
  rw [hvv] at hc
  exact congrArg₂ (· * ·) (congrArg₂ (· + ·) hc rfl) rfl

/-! ## The array after the region, the transpose after it, and the run -/

/-- What point t writes back is block t of the result. -/
theorem flushed_eq (c : Dev nD) (t : Fin cfg0.N) :
    (dats m 0 c).flushed 4 t = ((cfg0.win 4).blk t).view.read (Elt Ideal) (outK m c) := by
  show (cfg0.win 4).cut (grid0.coords t) ((dats m 0 c).after 4 t) = _
  rw [after0_4]
  show (out0_4 (F := Ideal) (iblk m c 0 t) (iblk m c 1 t) (iblk m c 2 t) (iblk m c 3 t) : S8x128x16x256.Idx → EReal) = _
  rw [out_eq_blkFn, blk_eq]

/-- An index of the result array is in point t's block iff each coordinate is in the block's range on its axis. -/
theorem mem_blk (t : Fin cfg0.N) (i : S64x128x16x256.Idx) :
    i ∈ ((cfg0.win 4).blk t).view.set ↔ ∀ a : Fin 4, win0_4.index t a * S8x128x16x256.size a ≤ (i a).val
      ∧ (i a).val < win0_4.index t a * S8x128x16x256.size a + S8x128x16x256.size a := by
  show i ∈ ((View.whole main_v27).slice (win0_4.rect t)).set ↔ _
  rw [View.set_slice_whole, Rect.mem_set_unit]
  exact Iff.rfl

/-- Every group of 8 samples is some point's block. -/
theorem idx_onto : ∀ q : Fin 8, ∃ t : Fin cfg0.N, win0_4.index t = ![q.val, 0, 0, 0] :=
  (by decide +kernel : ∀ q : Fin 8, ∃ t : Fin grid0.N, win0_4.index t = ![q.val, 0, 0, 0])

/-- The eight blocks tile the array along the sample axis, so after the region the array is the result. -/
theorem final (c : Dev nD) : (dats m 0 c).arrAt 4 cfg0.N = outK m c :=
  (dats m 0 c).arrAt_eq_of_cover 4 (outK m c) (fun t _ => flushed_eq m c t) fun i => by
    have h0 : (i 0).val < 64 := (i 0).isLt
    have h1 : (i 1).val < 128 := (i 1).isLt
    have h2 : (i 2).val < 16 := (i 2).isLt
    have h3 : (i 3).val < 256 := (i 3).isLt
    obtain ⟨t, ht⟩ := idx_onto ⟨(i 0).val / 8, by omega⟩
    have q0 : win0_4.index t (0 : Fin 4) = (i 0).val / 8 := congrFun ht 0
    have q1 : win0_4.index t (1 : Fin 4) = 0 := congrFun ht 1
    have q2 : win0_4.index t (2 : Fin 4) = 0 := congrFun ht 2
    have q3 : win0_4.index t (3 : Fin 4) = 0 := congrFun ht 3
    refine ⟨t, flush0_4 t, ?_⟩
    rw [mem_blk]
    intro a
    match a with
    | ⟨0, _⟩ => show win0_4.index t (0 : Fin 4) * 8 ≤ (i 0).val ∧ (i 0).val < win0_4.index t (0 : Fin 4) * 8 + 8; omega
    | ⟨1, _⟩ => show win0_4.index t (1 : Fin 4) * 128 ≤ (i 1).val ∧ (i 1).val < win0_4.index t (1 : Fin 4) * 128 + 128; omega
    | ⟨2, _⟩ => show win0_4.index t (2 : Fin 4) * 16 ≤ (i 2).val ∧ (i 2).val < win0_4.index t (2 : Fin 4) * 16 + 16; omega
    | ⟨3, _⟩ => show win0_4.index t (3 : Fin 4) * 256 ≤ (i 3).val ∧ (i 3).val < win0_4.index t (3 : Fin 4) * 256 + 256; omega

/-- The program's result: the transpose after the region exchanges node and time back. -/
theorem tail_eq (c : Dev nD) :
    Pipeline.afterTail₀ cfgs (dats m) 0 (V0 m) [hostOps1] c main_v28 = Cert.Spec.conv (m ((c.tc : Thread nD τ).loc main_arg0)) (m ((c.tc : Thread nD τ).loc main_arg2)) (m ((c.tc : Thread nD τ).loc main_arg3)) (m ((c.tc : Thread nD τ).loc main_arg4)) := by
  unfold Pipeline.afterTail₀
  show StableHlo.after hostOps1 _ (Proc.devRef .tc main_v28) = _
  after_results
  -- the region's array, as the lines after the region find it, is the result array
  have hw : Pipeline.withArrays (cfgs 0).spec c (V0 m c) (fun w => (dats m 0 c).arrAt w (cfgs 0).N) (Proc.devRef .tc main_v27) = outK m c :=
    (Pipeline.withArrays_arr spec0 launch0.win.arr_inj c _ _ 4).trans (final m c)
  rw [hw]
  funext i
  obtain ⟨n, co, tt, v, rfl⟩ : ∃ (n : Fin 64) (co : Fin 128) (tt : Fin 256) (v : Fin 16), i = ix4 n co tt v := ⟨i 0, i 1, i 2, i 3, eq_ix4 i⟩
  -- the transpose at [n, co, t', v] reads the array at [n, co, v, t'], which holds conv[n, co, t', v]
  refine (transpose_apply [0, 1, 3, 2] (outK m c) _ (ix4 n co tt v) (ix4 n co v tt) ?_).trans ?_
  · intro b
    match b with
    | ⟨0, _⟩ => rfl
    | ⟨1, _⟩ => rfl
    | ⟨2, _⟩ => rfl
    | ⟨3, _⟩ => rfl
  · rfl

/-- The run, read: the result array at the masked convolution of the argument arrays, the arguments unchanged. -/
theorem run : θ_run (defs (F := Ideal)) (onTc (τ := τ) (main (F := Ideal))) ⟨m, fun _ => 0, ρ⟩ (fun r => ∀ c : Dev nD,
      r.2.mem ((c.tc : Thread nD τ).loc main_v28) = Cert.Spec.conv (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v28 (Pipeline.mem_restRefs_of main_v28 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩) (run_main m ρ)

end Cert.KerSide

end
-- ==== Proof.RefSide.lean ====
/-
  The reference program's run, read as a value: its result array ends at the masked 1×1 convolution of its
  argument arrays (Spec.lean's `conv`), and its argument arrays end unchanged.
-/
import proofs.«139780_g2000502679770559_pallasbulk_20_26_alg».proof.Proof.Gen.ReferenceIdeal.Frame
import proofs.«139780_g2000502679770559_pallasbulk_20_26_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx

namespace Cert.RefSide

open Cert.ReferenceIdeal Cert.ReferenceIdeal.Gen

/-! ## The region's result as one function of the four arrays the region reads

The region reads the samples as [64, 64, 4096] (time steps and nodes flattened into one axis of 4096 columns), the
weight as a [128, 64] matrix, the bias as a [128, 1] column and the mask as [64, 1, 4096] rows. Its result at
(n, co, j) is the contraction over the 64 input channels, plus the bias of channel co, times the mask of sample n at
column j. -/

/-- The region's result, index by index. -/
def G3 (X : S64x64x4096.Idx → EReal) (W : S128x64.Idx → EReal) (B : S128x1.Idx → EReal) (M : S64x1x4096.Idx → EReal) :
    S64x128x4096.Idx → EReal :=
  fun i => ((∑ ci : Fin 64, W (ix2 (i 1 : Fin 128) ci) * X (ix3 (i 0 : Fin 64) ci (i 2 : Fin 4096)))
      + B (ix2 (i 1 : Fin 128) (0 : Fin 1))) * M (ix3 (i 0 : Fin 64) (0 : Fin 1) (i 2 : Fin 4096))

/-! ## The body's stored value at an index -/

/-- The dimension numbers of the body's one matrix product: [128, 64] by [64, 2048], contracting the 64 channels. -/
abbrev D := dot_S128x64_S64x2048_S128x2048_1_0_0_1_n_n

/-- The left operand is read at the output's row … -/
theorem lhs_0 (i : S128x2048.Idx) (q : D.contr.Idx) : (D.lhsIdx i q 0).val = (i 0).val := by
  unfold DotDims.lhsIdx
  rw [dif_neg (show ¬(0 : Fin S128x64.rank) ∈ D.lhsBatch by decide),
    dif_pos (show (0 : Fin S128x64.rank) ∈ D.lhsNonContracting by decide)]
  rfl
/-- … and the contracted channel; -/
theorem lhs_1 (i : S128x2048.Idx) (q : D.contr.Idx) : (D.lhsIdx i q 1).val = (q ⟨0, by decide⟩).val :=
  D.lhsIdx_val_of_single rfl i q
/-- the right operand at the contracted channel … -/
theorem rhs_0 (i : S128x2048.Idx) (q : D.contr.Idx) : (D.rhsIdx i q 0).val = (q ⟨0, by decide⟩).val :=
  D.rhsIdx_val_of_single rfl i q
/-- … and the output's column. -/
theorem rhs_1 (i : S128x2048.Idx) (q : D.contr.Idx) : (D.rhsIdx i q 1).val = (i 1).val := by
  unfold DotDims.rhsIdx
  rw [dif_neg (show ¬(1 : Fin S64x2048.rank) ∈ D.rhsBatch by decide),
    dif_pos (show (1 : Fin S64x2048.rank) ∈ D.rhsNonContracting by decide)]
  rfl

/-- The matrix product into a zero accumulator, at (co, q): the sum over the 64 channels of the products. -/
theorem matmul_at (A : FVec Ideal S128x64 .f32) (Bm : FVec Ideal S64x2048 .f32) (co : Fin 128) (q : Fin 2048) :
    matmul D none A Bm (constant (F := Ideal) S128x2048 .f32 0x00000000#32) (ix2 co q)
      = ∑ ci : Fin 64, A (ix2 co ci) * Bm (ix2 ci q) := by
  show FloatOps.matmul D none A Bm (constant (F := Ideal) S128x2048 .f32 0x00000000#32) (ix2 co q) = _
  rw [Ideal.matmul_constant_zero_apply, ← Equiv.sum_comp (contrEquiv1 D 64 rfl rfl).symm]
  refine Finset.sum_congr rfl fun ci _ => ?_
  have hk := contrEquiv1_symm_val D 64 rfl rfl ci
  have el : D.lhsIdx (ix2 co q) ((contrEquiv1 D 64 rfl rfl).symm ci) = ix2 co ci := funext fun a => Fin.ext (by
    match a with
    | ⟨0, _⟩ => exact lhs_0 _ _
    | ⟨1, _⟩ => exact (lhs_1 _ _).trans hk)
  have er : D.rhsIdx (ix2 co q) ((contrEquiv1 D 64 rfl rfl).symm ci) = ix2 ci q := funext fun a => Fin.ext (by
    match a with
    | ⟨0, _⟩ => exact (rhs_0 _ _).trans hk
    | ⟨1, _⟩ => exact rhs_1 _ _)
  rw [el, er]

/-- A [128, 1] column broadcast along 2048 columns reads, at (co, q), the column's entry of row co. -/
theorem bcast_col_at (v : S128x1.Idx → EReal) (h : S128x1.Broadcasts S128x2048) (co : Fin 128) (q : Fin 2048) :
    broadcastTo S128x2048 v h (ix2 co q) = v (ix2 co (0 : Fin 1)) := by
  refine broadcastTo_apply v h (ix2 co q) (ix2 co (0 : Fin 1)) fun ax => ?_
  match ax with
  | ⟨0, _⟩ => rfl
  | ⟨1, _⟩ => rfl

/-- The body's stored value at (u, co, q) of its [1, 128, 2048] block, from the four loaded blocks: the channel
    contraction of the weight's row co with column q of the sample's block, plus the bias of co, times the mask at q. -/
theorem pay_at (v0 : Vec Ideal S128x64 .f32) (v2 : Vec Ideal S1x64x2048 .f32) (v5 : Vec Ideal S128x1 .f32)
    (v9 : Vec Ideal S1x1x2048 .f32) (u : Fin 1) (co : Fin 128) (q : Fin 2048) :
    k0_pay1 v0 v2 v5 v9 (ix3 u co q)
      = ((∑ ci : Fin 64, v0 (ix2 co ci) * v2 (ix3 (0 : Fin 1) ci q)) + v5 (ix2 co (0 : Fin 1)))
          * v9 (ix3 (0 : Fin 1) (0 : Fin 1) q) := by
  unfold k0_pay1
  rw [shapeCast_ab_1ab_apply, mulf_apply, addf_apply, matmul_at, bcast_col_at, broadcastTo_1b_ab_apply,
    shapeCast_self, shapeCast_self]
  simp only [shapeCast_1ab_ab_apply]

/-! ## The result of the region at an index of a block, from the blocks' entries -/

/-- The region's result at (n, co, j). -/
theorem G3_at (X : S64x64x4096.Idx → EReal) (W : S128x64.Idx → EReal) (B : S128x1.Idx → EReal) (M : S64x1x4096.Idx → EReal)
    (n : Fin 64) (co : Fin 128) (j : Fin 4096) :
    G3 X W B M (ix3 n co j)
      = ((∑ ci : Fin 64, W (ix2 co ci) * X (ix3 n ci j)) + B (ix2 co (0 : Fin 1))) * M (ix3 n (0 : Fin 1) j) := rfl

/-- If four blocks hold the entries of the four arrays that the result at `i` depends on, the body's formula over the
    blocks is the region's result at `i`. -/
theorem G3_of_blocks (X : S64x64x4096.Idx → EReal) (W : S128x64.Idx → EReal) (B : S128x1.Idx → EReal) (M : S64x1x4096.Idx → EReal)
    (x0 : Vec Ideal S1x64x2048 .f32) (x1 : Vec Ideal S128x64 .f32) (x2 : Vec Ideal S128x1 .f32) (x3 : Vec Ideal S1x1x2048 .f32)
    (i : S64x128x4096.Idx) (co : Fin 128) (q : Fin 2048)
    (h1 : ∀ ci : Fin 64, x1 (ix2 co ci) = W (ix2 (i 1 : Fin 128) ci))
    (h0 : ∀ ci : Fin 64, x0 (ix3 (0 : Fin 1) ci q) = X (ix3 (i 0 : Fin 64) ci (i 2 : Fin 4096)))
    (h2 : x2 (ix2 co (0 : Fin 1)) = B (ix2 (i 1 : Fin 128) (0 : Fin 1)))
    (h3 : x3 (ix3 (0 : Fin 1) (0 : Fin 1) q) = M (ix3 (i 0 : Fin 64) (0 : Fin 1) (i 2 : Fin 4096))) :
    ((∑ ci : Fin 64, x1 (ix2 co ci) * x0 (ix3 (0 : Fin 1) ci q)) + x2 (ix2 co (0 : Fin 1))) * x3 (ix3 (0 : Fin 1) (0 : Fin 1) q)
      = G3 X W B M i := by
  unfold G3
  rw [Finset.sum_congr rfl (fun ci _ => by rw [h1 ci, h0 ci]), h2, h3]

section Blocks

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid of 64 × 2 points, point t = (t / 2, t % 2): the samples', the mask's and the
    result's blocks sit at sample t / 2 and column half t % 2; the weight's and the bias's one block is the whole array. -/
theorem idx_facts : ∀ t : Fin cfg0.N,
    win0_0.index t (0 : Fin 3) = t.val / 2 ∧ win0_0.index t (1 : Fin 3) = 0 ∧ win0_0.index t (2 : Fin 3) = t.val % 2
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 2 ∧ win0_3.index t (1 : Fin 3) = 0 ∧ win0_3.index t (2 : Fin 3) = t.val % 2
    ∧ win0_4.index t (0 : Fin 3) = t.val / 2 ∧ win0_4.index t (1 : Fin 3) = 0 ∧ win0_4.index t (2 : Fin 3) = t.val % 2 :=
  (by decide +kernel : ∀ t : Fin grid0.N, _)

/-- The samples' block at point t holds sample t / 2, all 64 channels, columns (t % 2) · 2048 + q. -/
theorem iblk0_at (c : Dev nD) (t : Fin cfg0.N) (y : S1x64x2048.Idx) (k : S64x64x4096.Idx)
    (hk0 : (k 0).val = t.val / 2) (hk1 : (k 1).val = (y 1).val) (hk2 : (k 2).val = t.val % 2 * 2048 + (y 2).val) :
    (iblk m c 0 t : Vec Ideal S1x64x2048 .f32) y = (V m c main_v0 : S64x64x4096.Idx → EReal) k := by
  obtain ⟨e0, e1, e2, -⟩ := idx_facts t
  have hy0 : (y 0).val < 1 := (y 0).isLt
  unfold iblk
  rw [View.read_apply]
  show (V m c main_v0 : S64x64x4096.Idx → EReal) _ = V m c main_v0 _
  refine congrArg (V m c main_v0 : S64x64x4096.Idx → EReal) (funext fun a => Fin.ext ?_)
  match a with
  | ⟨0, _⟩ => show win0_0.index t (0 : Fin 3) * 1 + 1 * (y 0).val = (k 0).val; rw [e0, hk0]; omega
  | ⟨1, _⟩ => show win0_0.index t (1 : Fin 3) * 64 + 1 * (y 1).val = (k 1).val; rw [e1, hk1]; omega
  | ⟨2, _⟩ => show win0_0.index t (2 : Fin 3) * 2048 + 1 * (y 2).val = (k 2).val; rw [e2, hk2]; omega

/-- The weight's one block is the whole [128, 64] matrix. -/
theorem iblk1_at (c : Dev nD) (t : Fin cfg0.N) (y : S128x64.Idx) :
    (iblk m c 1 t : Vec Ideal S128x64 .f32) y = (V m c main_v1 : S128x64.Idx → EReal) y := by
  obtain ⟨-, -, -, e0, e1, -⟩ := idx_facts t
  unfold iblk
  rw [View.read_apply]
  show (V m c main_v1 : S128x64.Idx → EReal) _ = V m c main_v1 _
  refine congrArg (V m c main_v1 : S128x64.Idx → EReal) (funext fun a => Fin.ext ?_)
  match a with
  | ⟨0, _⟩ => show win0_1.index t (0 : Fin 2) * 128 + 1 * (y 0).val = (y 0).val; rw [e0]; omega
  | ⟨1, _⟩ => show win0_1.index t (1 : Fin 2) * 64 + 1 * (y 1).val = (y 1).val; rw [e1]; omega

/-- The bias's one block is the whole [128, 1] column. -/
theorem iblk2_at (c : Dev nD) (t : Fin cfg0.N) (y : S128x1.Idx) :
    (iblk m c 2 t : Vec Ideal S128x1 .f32) y = (V m c main_v2 : S128x1.Idx → EReal) y := by
  obtain ⟨-, -, -, -, -, e0, e1, -⟩ := idx_facts t
  unfold iblk
  rw [View.read_apply]
  show (V m c main_v2 : S128x1.Idx → EReal) _ = V m c main_v2 _
  refine congrArg (V m c main_v2 : S128x1.Idx → EReal) (funext fun a => Fin.ext ?_)
  match a with
  | ⟨0, _⟩ => show win0_2.index t (0 : Fin 2) * 128 + 1 * (y 0).val = (y 0).val; rw [e0]; omega
  | ⟨1, _⟩ => show win0_2.index t (1 : Fin 2) * 1 + 1 * (y 1).val = (y 1).val; rw [e1]; omega

/-- The mask's block at point t holds sample t / 2, columns (t % 2) · 2048 + q. -/
theorem iblk3_at (c : Dev nD) (t : Fin cfg0.N) (y : S1x1x2048.Idx) (k : S64x1x4096.Idx)
    (hk0 : (k 0).val = t.val / 2) (hk1 : (k 1).val = (y 1).val) (hk2 : (k 2).val = t.val % 2 * 2048 + (y 2).val) :
    (iblk m c 3 t : Vec Ideal S1x1x2048 .f32) y = (V m c main_v3 : S64x1x4096.Idx → EReal) k := by
  obtain ⟨-, -, -, -, -, -, -, e0, e1, e2, -⟩ := idx_facts t
  have hy0 : (y 0).val < 1 := (y 0).isLt
  unfold iblk
  rw [View.read_apply]
  show (V m c main_v3 : S64x1x4096.Idx → EReal) _ = V m c main_v3 _
  refine congrArg (V m c main_v3 : S64x1x4096.Idx → EReal) (funext fun a => Fin.ext ?_)
  match a with
  | ⟨0, _⟩ => show win0_3.index t (0 : Fin 3) * 1 + 1 * (y 0).val = (k 0).val; rw [e0, hk0]; omega
  | ⟨1, _⟩ => show win0_3.index t (1 : Fin 3) * 1 + 1 * (y 1).val = (k 1).val; rw [e1, hk1]; omega
  | ⟨2, _⟩ => show win0_3.index t (2 : Fin 3) * 2048 + 1 * (y 2).val = (k 2).val; rw [e2, hk2]; omega

/-- The region's result array as a function of the four arrays as the region finds them. -/
abbrev GV (c : Dev nD) : S64x128x4096.Idx → EReal :=
  G3 (V m c main_v0 : S64x64x4096.Idx → EReal) (V m c main_v1 : S128x64.Idx → EReal) (V m c main_v2 : S128x1.Idx → EReal)
    (V m c main_v3 : S64x1x4096.Idx → EReal)

/-- Where entry (u, co, q) of the result's block at point t sits in the result array: sample t / 2, channel co, column
    (t % 2) · 2048 + q. -/
theorem oemb_val (t : Fin cfg0.N) (y : S1x128x2048.Idx) :
    ((((cfg0.win 4).blk t).view.emb y : S64x128x4096.Idx) 0).val = t.val / 2
    ∧ ((((cfg0.win 4).blk t).view.emb y : S64x128x4096.Idx) 1).val = (y 1).val
    ∧ ((((cfg0.win 4).blk t).view.emb y : S64x128x4096.Idx) 2).val = t.val % 2 * 2048 + (y 2).val := by
  obtain ⟨-, -, -, -, -, -, -, -, -, -, e0, e1, e2⟩ := idx_facts t
  have hy0 : (y 0).val < 1 := (y 0).isLt
  refine ⟨?_, ?_, ?_⟩
  · show win0_4.index t (0 : Fin 3) * 1 + 1 * (y 0).val = _; rw [e0]; omega
  · show win0_4.index t (1 : Fin 3) * 128 + 1 * (y 1).val = _; rw [e1]; omega
  · show win0_4.index t (2 : Fin 3) * 2048 + 1 * (y 2).val = _; rw [e2]; omega

/-- What point t writes back is block t of the region's result function. -/
theorem flushed_eq (c : Dev nD) (t : Fin cfg0.N) :
    (dats m 0 c).flushed 4 t = ((cfg0.win 4).blk t).view.read (Elt Ideal) (GV m c) := by
  show (cfg0.win 4).cut (grid0.coords t) ((dats m 0 c).after 4 t) = _
  rw [after0_4]
  unfold out0_4
  rw [View.canon_unit_zero hz3]
  simp only [View.ld_unit_zero (S := S128x64) hz2, View.ld_unit_zero (S := S1x64x2048) hz3,
    View.ld_unit_zero (S := S128x1) hz2, View.ld_unit_zero (S := S1x1x2048) hz3]
  funext j
  obtain ⟨u, co, q, rfl⟩ : ∃ (u : Fin 1) (co : Fin 128) (q : Fin 2048), j = ix3 u co q := ⟨j 0, j 1, j 2, eq_ix3 j⟩
  refine (pay_at (iblk m c 1 t) (iblk m c 0 t) (iblk m c 2 t) (iblk m c 3 t) u co q).trans ?_
  obtain ⟨o0, o1, o2⟩ := oemb_val t (ix3 u co q)
  have e1 : ((((cfg0.win 4).blk t).view.emb (ix3 u co q) : S64x128x4096.Idx) 1 : Fin 128) = co := Fin.ext o1
  rw [View.read_apply]
  exact G3_of_blocks (V m c main_v0 : S64x64x4096.Idx → EReal) (V m c main_v1 : S128x64.Idx → EReal)
    (V m c main_v2 : S128x1.Idx → EReal) (V m c main_v3 : S64x1x4096.Idx → EReal)
    (iblk m c 0 t) (iblk m c 1 t) (iblk m c 2 t) (iblk m c 3 t) (((cfg0.win 4).blk t).view.emb (ix3 u co q)) co q
    (fun ci => (iblk1_at m c t (ix2 co ci)).trans
      (congrArg (V m c main_v1 : S128x64.Idx → EReal) (congrArg (fun a : Fin 128 => ix2 a ci) e1.symm)))
    (fun ci => iblk0_at m c t (ix3 (0 : Fin 1) ci q) _ o0 rfl o2)
    ((iblk2_at m c t (ix2 co (0 : Fin 1))).trans
      (congrArg (V m c main_v2 : S128x1.Idx → EReal) (congrArg (fun a : Fin 128 => ix2 a (0 : Fin 1)) e1.symm)))
    (iblk3_at m c t (ix3 (0 : Fin 1) (0 : Fin 1) q) _ o0 rfl o2)

/-- An index of the result array is in point t's block iff each coordinate is in the block's range on its axis. -/
theorem mem_blk (t : Fin cfg0.N) (i : S64x128x4096.Idx) :
    i ∈ ((cfg0.win 4).blk t).view.set ↔ ∀ a : Fin 3, win0_4.index t a * S1x128x2048.size a ≤ (i a).val
      ∧ (i a).val < win0_4.index t a * S1x128x2048.size a + S1x128x2048.size a := by
  show i ∈ ((View.whole main_v4).slice (win0_4.rect t)).set ↔ _
  rw [View.set_slice_whole, Rect.mem_set_unit]
  exact Iff.rfl

/-- The blocks cover the result array: (n, co, j) lies in the block of point 2 · n + j / 2048. -/
theorem cover (i : S64x128x4096.Idx) :
    ∃ t : Fin cfg0.N, (cfg0.win 4).flush t = true ∧ i ∈ ((cfg0.win 4).blk t).view.set := by
  have h0 : (i 0).val < 64 := (i 0).isLt
  have h1 : (i 1).val < 128 := (i 1).isLt
  have h2 : (i 2).val < 4096 := (i 2).isLt
  have hN : cfg0.N = 128 := N_0
  have hlt : (i 0).val * 2 + (i 2).val / 2048 < cfg0.N := by rw [hN]; omega
  obtain ⟨-, -, -, -, -, -, -, -, -, -, e0, e1, e2⟩ := idx_facts ⟨(i 0).val * 2 + (i 2).val / 2048, hlt⟩
  have e0' : win0_4.index ⟨(i 0).val * 2 + (i 2).val / 2048, hlt⟩ (0 : Fin 3) = ((i 0).val * 2 + (i 2).val / 2048) / 2 := e0
  have e2' : win0_4.index ⟨(i 0).val * 2 + (i 2).val / 2048, hlt⟩ (2 : Fin 3) = ((i 0).val * 2 + (i 2).val / 2048) % 2 := e2
  refine ⟨⟨(i 0).val * 2 + (i 2).val / 2048, hlt⟩, flush0_4 _, ?_⟩
  rw [mem_blk]
  intro a
  match a with
  | ⟨0, _⟩ =>
    show win0_4.index _ (0 : Fin 3) * 1 ≤ (i 0).val ∧ (i 0).val < win0_4.index _ (0 : Fin 3) * 1 + 1
    rw [e0']; omega
  | ⟨1, _⟩ =>
    show win0_4.index _ (1 : Fin 3) * 128 ≤ (i 1).val ∧ (i 1).val < win0_4.index _ (1 : Fin 3) * 128 + 128
    rw [e1]; omega
  | ⟨2, _⟩ =>
    show win0_4.index _ (2 : Fin 3) * 2048 ≤ (i 2).val ∧ (i 2).val < win0_4.index _ (2 : Fin 3) * 2048 + 2048
    rw [e2']; omega

/-- So the region's result array ends holding the region's result function of the arrays the region found. -/
theorem final (c : Dev nD) : (dats m 0 c).arrAt 4 cfg0.N = GV m c :=
  (dats m 0 c).arrAt_eq_of_cover 4 (GV m c) (fun t _ => flushed_eq m c t) (cover)

end Blocks

/-! ## The host reshapes: the four arrays the region finds, and the result after the region

Before the region the samples [64, 64, 256, 16] are viewed as [64, 64, 4096] (column j = 16 · t + v), the weight
[128, 64, 1, 1] as [128, 64], the bias [128] as [128, 1] and the mask [64, 256, 16] as [64, 1, 4096]; after it the
result [64, 128, 4096] is viewed as [64, 128, 256, 16]. Each view keeps an entry's row-major position. -/

/-- The samples, viewed with the time steps and nodes flattened, at column 16 · t + v. -/
theorem x3_at (x : S64x64x256x16.Idx → EReal) (h : S64x64x256x16.ShapeCasts S64x64x4096) (n ci : Fin 64) (tt : Fin 256)
    (v : Fin 16) (jj : Fin 4096) (hj : jj.val = tt.val * 16 + v.val) :
    shapeCast S64x64x4096 x h (ix3 n ci jj) = x (ix4 n ci tt v) :=
  shapeCast_apply x h _ _ (by
    rw [Shape.rowMajor_val_four, Shape.rowMajor_val_three]
    show ((n.val * 64 + ci.val) * 256 + tt.val) * 16 + v.val = (n.val * 64 + ci.val) * 4096 + jj.val
    omega)

/-- The weight viewed as a matrix. -/
theorem w2_at (w : S128x64x1x1.Idx → EReal) (h : S128x64x1x1.ShapeCasts S128x64) (co : Fin 128) (ci : Fin 64) :
    shapeCast S128x64 w h (ix2 co ci) = w (ix4 co ci (0 : Fin 1) (0 : Fin 1)) :=
  shapeCast_apply w h _ _ (by
    rw [Shape.rowMajor_val_four, Shape.rowMajor_val_two]
    show ((co.val * 64 + ci.val) * 1 + 0) * 1 + 0 = co.val * 64 + ci.val
    omega)

/-- The bias viewed as a column. -/
theorem b2_at (b : S128.Idx → EReal) (h : S128.ShapeCasts S128x1) (co : Fin 128) :
    shapeCast S128x1 b h (ix2 co (0 : Fin 1)) = b (ix1 co) :=
  shapeCast_apply b h _ _ (by
    rw [Shape.rowMajor_val_one, Shape.rowMajor_val_two]
    show co.val = co.val * 1 + 0
    omega)

/-- The mask, viewed with the time steps and nodes flattened, at column 16 · t + v. -/
theorem m3_at (mk : S64x256x16.Idx → EReal) (h : S64x256x16.ShapeCasts S64x1x4096) (n : Fin 64) (tt : Fin 256)
    (v : Fin 16) (jj : Fin 4096) (hj : jj.val = tt.val * 16 + v.val) :
    shapeCast S64x1x4096 mk h (ix3 n (0 : Fin 1) jj) = mk (ix3 n tt v) :=
  shapeCast_apply mk h _ _ (by
    rw [Shape.rowMajor_val_three, Shape.rowMajor_val_three]
    show (n.val * 256 + tt.val) * 16 + v.val = (n.val * 1 + 0) * 4096 + jj.val
    omega)

/-- The masked convolution at (n, co, t, v). -/
theorem conv_at (x : S64x64x256x16.Idx → EReal) (w : S128x64x1x1.Idx → EReal) (b : S128.Idx → EReal)
    (mk : S64x256x16.Idx → EReal) (n : Fin 64) (co : Fin 128) (tt : Fin 256) (v : Fin 16) :
    Cert.Spec.conv x w b mk (ix4 n co tt v)
      = ((∑ ci : Fin 64, w (ix4 co ci (0 : Fin 1) (0 : Fin 1)) * x (ix4 n ci tt v)) + b (ix1 co)) * mk (ix3 n tt v) := rfl

/-- The region's result of the viewed arrays, viewed back as [64, 128, 256, 16], is the masked convolution. -/
theorem G3_reshaped (x : S64x64x256x16.Idx → EReal) (w : S128x64x1x1.Idx → EReal) (b : S128.Idx → EReal)
    (mk : S64x256x16.Idx → EReal) (h0 : S64x64x256x16.ShapeCasts S64x64x4096) (h1 : S128x64x1x1.ShapeCasts S128x64)
    (h2 : S128.ShapeCasts S128x1) (h3 : S64x256x16.ShapeCasts S64x1x4096) (h5 : S64x128x4096.ShapeCasts S64x128x256x16) :
    shapeCast S64x128x256x16
        (G3 (shapeCast S64x64x4096 x h0) (shapeCast S128x64 w h1) (shapeCast S128x1 b h2) (shapeCast S64x1x4096 mk h3)) h5
      = Cert.Spec.conv x w b mk := by
  funext i
  obtain ⟨n, co, tt, v, rfl⟩ : ∃ (n : Fin 64) (co : Fin 128) (tt : Fin 256) (v : Fin 16), i = ix4 n co tt v :=
    ⟨i 0, i 1, i 2, i 3, eq_ix4 i⟩
  have hlt : tt.val * 16 + v.val < 4096 := by have := tt.isLt; have := v.isLt; omega
  rw [shapeCast_apply _ h5 (ix4 n co tt v) (ix3 n co (⟨tt.val * 16 + v.val, hlt⟩ : Fin 4096)) (by
    rw [Shape.rowMajor_val_three, Shape.rowMajor_val_four]
    show (n.val * 128 + co.val) * 4096 + (tt.val * 16 + v.val) = ((n.val * 128 + co.val) * 256 + tt.val) * 16 + v.val
    omega)]
  rw [G3_at, conv_at, b2_at, m3_at mk h3 n tt v _ rfl]
  rw [Finset.sum_congr rfl (fun ci _ => by rw [w2_at, x3_at x h0 n ci tt v _ rfl])]

section Host

variable (m : (ℓ : Loc nD τ sig) → Buf (Elt Ideal) ℓ)

/-- The region finds the samples viewed as [64, 64, 4096], -/
theorem V_v0 (c : Dev nD) : (V m c main_v0 : S64x64x4096.Idx → EReal)
    = shapeCast S64x64x4096 (m ((c.tc : Thread nD τ).loc main_arg0)) shapeCasts_S64x64x256x16_S64x64x4096 := by
  show StableHlo.after hostOps0 (fun b => m (c, b)) (Proc.devRef .tc main_v0) = _
  after_results
  rfl
/-- the weight viewed as [128, 64], -/
theorem V_v1 (c : Dev nD) : (V m c main_v1 : S128x64.Idx → EReal)
    = shapeCast S128x64 (m ((c.tc : Thread nD τ).loc main_arg2)) shapeCasts_S128x64x1x1_S128x64 := by
  show StableHlo.after hostOps0 (fun b => m (c, b)) (Proc.devRef .tc main_v1) = _
  after_results
  rfl
/-- the bias viewed as [128, 1], -/
theorem V_v2 (c : Dev nD) : (V m c main_v2 : S128x1.Idx → EReal)
    = shapeCast S128x1 (m ((c.tc : Thread nD τ).loc main_arg3)) shapeCasts_S128_S128x1 := by
  show StableHlo.after hostOps0 (fun b => m (c, b)) (Proc.devRef .tc main_v2) = _
  after_results
  rfl
/-- and the mask viewed as [64, 1, 4096]. -/
theorem V_v3 (c : Dev nD) : (V m c main_v3 : S64x1x4096.Idx → EReal)
    = shapeCast S64x1x4096 (m ((c.tc : Thread nD τ).loc main_arg4)) shapeCasts_S64x256x16_S64x1x4096 := by
  show StableHlo.after hostOps0 (fun b => m (c, b)) (Proc.devRef .tc main_v3) = _
  after_results
  rfl

/-- After the region the result buffer holds the region's result array viewed as [64, 128, 256, 16]. -/
theorem tail_v5 (c : Dev nD) : Pipeline.afterTail₀ cfgs (dats m) 0 (V0 m) [hostOps1] c main_v5
    = shapeCast S64x128x256x16 (GV m c) shapeCasts_S64x128x4096_S64x128x256x16 := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = GV m c :=
    (Pipeline.withArrays_arr spec0 launch0.win.arr_inj c _ _ 4).trans (final m c)
  rw [e]
  rfl

/-- The result buffer after the run is the masked convolution of the argument arrays. -/
theorem result_eq (c : Dev nD) : Pipeline.afterTail₀ cfgs (dats m) 0 (V0 m) [hostOps1] c main_v5
    = Cert.Spec.conv (m ((c.tc : Thread nD τ).loc main_arg0)) (m ((c.tc : Thread nD τ).loc main_arg2))
        (m ((c.tc : Thread nD τ).loc main_arg3)) (m ((c.tc : Thread nD τ).loc main_arg4)) := by
  rw [tail_v5]
  unfold GV
  rw [V_v0, V_v1, V_v2, V_v3]
  exact G3_reshaped _ _ _ _ _ _ _ _ _

end Host

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = Cert.Spec.conv (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  exact (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.RefSide

end
-- ==== Proof.lean ====
/-
  The claim: the kernel program and its reference, read on the extended reals, compute the same two results, each
  program runs to the end leaving its arguments unchanged, and the idealized kernel is the printed kernel's text.

  Both programs compute the masked 1×1 convolution of a [64, 64, 256, 16] input (sample, channel, time, node) with a
  [128, 64] weight, a [128] bias and a [64, 256, 16] mask,
      out[n, co, t, v] = (∑ ci, w[co, ci] · x[n, ci, t, v] + b[co]) · mask[n, t, v]      (Proof/Spec.lean, `conv`),
  and pass their second argument through untouched.
    · The reference flattens (time, node) to 4096 columns, multiplies the weight by each [64, 2048] block of columns,
      adds the bias column, multiplies by the mask row, and splits the columns back (Proof/RefSide.lean).
    · The kernel puts time last, builds the [1024, 512] block-diagonal weight whose entry (co·8 + g, ci·8 + g') is
      w[co, ci] for g = g' and 0 otherwise (Proof/KerHost.lean), multiplies it by each 8-node group's [512, 256] slab of
      a sample (Proof/KerTile.lean, Proof/KerPiece.lean), adds the bias, multiplies by the mask, and puts node last
      again (Proof/KerBlocks.lean).
  The two agree because a column with g' ≠ g contributes 0 · x = 0, for every extended real x, so the contraction over
  the 512 columns is the contraction over the 64 channels (Spec.collapse). Nothing in this uses that the inputs are
  finite. The frames are the generated ones; the idealization rewrote no operation (Proof/Claims.lean).
-/
import proofs.«139780_g2000502679770559_pallasbulk_20_26_alg».proof.Defs
import proofs.«139780_g2000502679770559_pallasbulk_20_26_alg».proof.Proof.Gen.Kernel
import proofs.«139780_g2000502679770559_pallasbulk_20_26_alg».proof.Proof.Gen.Kernel.Skeleton
import proofs.«139780_g2000502679770559_pallasbulk_20_26_alg».proof.Proof.Gen.Kernel.Launch
import proofs.«139780_g2000502679770559_pallasbulk_20_26_alg».proof.Proof.Gen.Kernel.Points
import proofs.«139780_g2000502679770559_pallasbulk_20_26_alg».proof.Proof.Gen.Kernel.Frame
import proofs.«139780_g2000502679770559_pallasbulk_20_26_alg».proof.Proof.Gen.KernelIdeal
import proofs.«139780_g2000502679770559_pallasbulk_20_26_alg».proof.Proof.Gen.KernelIdeal.Skeleton
import proofs.«139780_g2000502679770559_pallasbulk_20_26_alg».proof.Proof.Gen.KernelIdeal.Launch
import proofs.«139780_g2000502679770559_pallasbulk_20_26_alg».proof.Proof.Gen.KernelIdeal.Points
import proofs.«139780_g2000502679770559_pallasbulk_20_26_alg».proof.Proof.Gen.KernelIdeal.Frame
import proofs.«139780_g2000502679770559_pallasbulk_20_26_alg».proof.Proof.Gen.ReferenceIdeal
import proofs.«139780_g2000502679770559_pallasbulk_20_26_alg».proof.Proof.Gen.ReferenceIdeal.Skeleton
import proofs.«139780_g2000502679770559_pallasbulk_20_26_alg».proof.Proof.Gen.ReferenceIdeal.Launch
import proofs.«139780_g2000502679770559_pallasbulk_20_26_alg».proof.Proof.Gen.ReferenceIdeal.Points
import proofs.«139780_g2000502679770559_pallasbulk_20_26_alg».proof.Proof.Gen.ReferenceIdeal.Frame
import proofs.«139780_g2000502679770559_pallasbulk_20_26_alg».proof.Proof.Gen.Pre_finite_inputs
import proofs.«139780_g2000502679770559_pallasbulk_20_26_alg».proof.Proof.Claims
import proofs.«139780_g2000502679770559_pallasbulk_20_26_alg».proof.Proof.KerBlocks
import proofs.«139780_g2000502679770559_pallasbulk_20_26_alg».proof.Proof.RefSide
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves,
    Claims.algebraic_of (fun m ρ => Cert.KerSide.run m ρ) (fun m ρ => Cert.RefSide.run m ρ)⟩

end Cert.Proof

end
